-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S8192x4096 : Shape := ⟨2, ![8192, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  main_v53

def fn_part2 {F : FTy → Type} [FloatOps F] (main_arg7 : FVec F S8192x4096 .f32) (main_arg8 : FVec F S4096 .f32) (main_arg9 : FVec F S8192x4096 .f32) (main_arg10 : FVec F S4096 .f32) (main_v33 : IVec S_ 1) : IVec S_ 1 :=
  let main_v34 : FVec F S8192x4096 .f32 := Host.absf main_arg7
  let main_cst_12 : FVec F S_ .f32 := constant S_ .f32 0x7F800000#32
  let main_v35 : FVec F S8192x4096 .f32 := broadcastInDim S8192x4096 ![] bcast_S_S8192x4096 main_cst_12
  let main_v36 : IVec S8192x4096 1 := cmpf .olt main_v34 main_v35
  let main_c_13 : IVec S_ 1 := constantI S_ 1 1#1
  let main_v37 : IVec S_ 1 := (fun x v => Host.reduce IntOp.andi x v reducesTo_S8192x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S8192x4096 .f32 := Host.absf main_arg9
  let main_cst_16 : FVec F S_ .f32 := constant S_ .f32 0x7F800000#32
  let main_v45 : FVec F S8192x4096 .f32 := broadcastInDim S8192x4096 ![] bcast_S_S8192x4096 main_cst_16
  let main_v46 : IVec S8192x4096 1 := cmpf .olt main_v44 main_v45
  let main_c_17 : IVec S_ 1 := constantI S_ 1 1#1
  let main_v47 : IVec S_ 1 := (fun x v => Host.reduce IntOp.andi x v reducesTo_S8192x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_v48 main_v49 main_v50

def fn_part1 {F : FTy → Type} [FloatOps F] (main_arg4 : FVec F S4096 .f32) (main_arg5 : FVec F S8192x4096 .f32) (main_arg6 : FVec F S4096 .f32) (main_arg7 : FVec F S8192x4096 .f32) (main_arg8 : FVec F S4096 .f32) (main_arg9 : FVec F S8192x4096 .f32) (main_arg10 : FVec F S4096 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S8192x4096 .f32 := Host.absf main_arg5
  let main_cst_8 : FVec F S_ .f32 := constant S_ .f32 0x7F800000#32
  let main_v25 : FVec F S8192x4096 .f32 := broadcastInDim S8192x4096 ![] bcast_S_S8192x4096 main_cst_8
  let main_v26 : IVec S8192x4096 1 := cmpf .olt main_v24 main_v25
  let main_c_9 : IVec S_ 1 := constantI S_ 1 1#1
  let main_v27 : IVec S_ 1 := (fun x v => Host.reduce IntOp.andi x v reducesTo_S8192x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x4096 .f32) (main_arg1 : FVec F S4096x4096 .f32) (main_arg2 : FVec F S4096x4096 .f32) (main_arg3 : FVec F S8192x4096 .f32) (main_arg4 : FVec F S4096 .f32) (main_arg5 : FVec F S8192x4096 .f32) (main_arg6 : FVec F S4096 .f32) (main_arg7 : FVec F S8192x4096 .f32) (main_arg8 : FVec F S4096 .f32) (main_arg9 : FVec F S8192x4096 .f32) (main_arg10 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_arg5 main_arg6 main_arg7 main_arg8 main_arg9 main_arg10 main_v13 main_v16
-- ==== Kernel.lean ====
abbrev S4096x4096 : Shape := ⟨2, ![4096, 4096]⟩
abbrev S8192x4096 : Shape := ⟨2, ![8192, 4096]⟩
abbrev S4096 : Shape := ⟨1, ![4096]⟩
abbrev S4096x8192 : Shape := ⟨2, ![4096, 8192]⟩
abbrev S1024x1024 : Shape := ⟨2, ![1024, 1024]⟩
abbrev S1024x256 : Shape := ⟨2, ![1024, 256]⟩
abbrev S256 : Shape := ⟨1, ![256]⟩
abbrev S1x256 : Shape := ⟨2, ![1, 256]⟩

abbrev nBuf : Space → Nat
  | .hbm => 15
  | .vmem => 28
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S8192x4096, .f32⟩
  | .hbm, ⟨4, _⟩ => ⟨S4096, .f32⟩
  | .hbm, ⟨5, _⟩ => ⟨S8192x4096, .f32⟩
  | .hbm, ⟨6, _⟩ => ⟨S4096, .f32⟩
  | .hbm, ⟨7, _⟩ => ⟨S8192x4096, .f32⟩
  | .hbm, ⟨8, _⟩ => ⟨S4096, .f32⟩
  | .hbm, ⟨9, _⟩ => ⟨S8192x4096, .f32⟩
  | .hbm, ⟨10, _⟩ => ⟨S4096, .f32⟩
  | .hbm, ⟨11, _⟩ => ⟨S4096x8192, .f32⟩
  | .hbm, ⟨12, _⟩ => ⟨S4096x8192, .bf16⟩
  | .hbm, ⟨13, _⟩ => ⟨S4096x4096, .f32⟩
  | .hbm, ⟨14, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S256, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 16, 8], ![false, false, false]⟩

def k0_cond2 (i : grid0.Coords) : BitVec 1 :=
  let arg2 : BitVec 32 := BitVec.ofNat 32 (i 2).val
  let c7_i32 : BitVec 32 := 7#32
  let v37 : BitVec 1 := Scalar.cmpi .eq arg2 c7_i32
  let v38 : BitVec 32 := Scalar.extui v37
  let c0_i32_29 : BitVec 32 := 0#32
  let v39 : BitVec 1 := Scalar.cmpi .ne v38 c0_i32_29
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_8 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

class Facts₀ : Prop where
  concatenates_S4096x4096_S4096x4096_S4096x8192_d1 : Shape.Concatenates [S4096x4096, S4096x4096] S4096x8192 1
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .bf16 = 32 ∨ (Rect.block (s := S4096x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x4096.size a
  hwx0_1 : ∀ i : grid0.Coords, EltTy.bits .f32 = 32 ∨ (Rect.block (s := S8192x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x4096.size a
  hwx0_2 : ∀ i : grid0.Coords, EltTy.bits .f32 = 32 ∨ (Rect.block (s := S8192x4096) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x4096.size a
  hwx0_3 : ∀ i : grid0.Coords, EltTy.bits .f32 = 32 ∨ (Rect.block (s := S8192x4096) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x4096.size a
  hwx0_4 : ∀ i : grid0.Coords, EltTy.bits .f32 = 32 ∨ (Rect.block (s := S8192x4096) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S4096.size a
  hwx0_5 : ∀ i : grid0.Coords, EltTy.bits .f32 = 32 ∨ (Rect.block (s := S4096) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S4096.size a
  hwx0_6 : ∀ i : grid0.Coords, EltTy.bits .f32 = 32 ∨ (Rect.block (s := S4096) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S4096.size a
  hwx0_7 : ∀ i : grid0.Coords, EltTy.bits .f32 = 32 ∨ (Rect.block (s := S4096) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S4096.size a
  hwx0_8 : ∀ i : grid0.Coords, EltTy.bits .f32 = 32 ∨ (Rect.block (s := S4096) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S4096x4096.size a
  hwx0_9 : ∀ i : grid0.Coords, EltTy.bits .f32 = 32 ∨ (Rect.block (s := S4096x4096) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S4096x4096.size a
  hwx0_10 : ∀ i : grid0.Coords, EltTy.bits .f32 = 32 ∨ (Rect.block (s := S4096x4096) S1024x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S4096x4096.size a
  hwx0_11 : ∀ i : grid0.Coords, EltTy.bits .f32 = 32 ∨ (Rect.block (s := S4096x4096) S1024x256.size (cc0_transform_11 i) (hinb0_11 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S1024x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_0) S1024x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_1) S1024x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4096x4096 : Shape := ⟨2, ![4096, 4096]⟩
abbrev S8192x4096 : Shape := ⟨2, ![8192, 4096]⟩
abbrev S4096 : Shape := ⟨1, ![4096]⟩
abbrev S4096x8192 : Shape := ⟨2, ![4096, 8192]⟩
abbrev S8192x16384 : Shape := ⟨2, ![8192, 16384]⟩
abbrev S16384 : Shape := ⟨1, ![16384]⟩
abbrev S4096x16384 : Shape := ⟨2, ![4096, 16384]⟩
abbrev S1x16384 : Shape := ⟨2, ![1, 16384]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S8192x4096, .f32⟩
  | .hbm, ⟨4, _⟩ => ⟨S4096, .f32⟩
  | .hbm, ⟨5, _⟩ => ⟨S8192x4096, .f32⟩
  | .hbm, ⟨6, _⟩ => ⟨S4096, .f32⟩
  | .hbm, ⟨7, _⟩ => ⟨S8192x4096, .f32⟩
  | .hbm, ⟨8, _⟩ => ⟨S4096, .f32⟩
  | .hbm, ⟨9, _⟩ => ⟨S8192x4096, .f32⟩
  | .hbm, ⟨10, _⟩ => ⟨S4096, .f32⟩
  | .hbm, ⟨11, _⟩ => ⟨S4096x8192, .f32⟩
  | .hbm, ⟨12, _⟩ => ⟨S8192x16384, .f32⟩
  | .hbm, ⟨13, _⟩ => ⟨S16384, .f32⟩
  | .hbm, ⟨14, _⟩ => ⟨S4096x16384, .f32⟩
  | .hbm, ⟨15, _⟩ => ⟨S1x16384, .f32⟩
  | .hbm, ⟨16, _⟩ => ⟨S4096x16384, .f32⟩
  | .hbm, ⟨17, _⟩ => ⟨S4096x16384, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S4096x4096_S4096x4096_S4096x8192_d1 : Shape.Concatenates [S4096x4096, S4096x4096] S4096x8192 1
  concatenates_S8192x4096_S8192x4096_S8192x4096_S8192x4096_S8192x16384_d1 : Shape.Concatenates [S8192x4096, S8192x4096, S8192x4096, S8192x4096] S8192x16384 1
  concatenates_S4096_S4096_S4096_S4096_S16384_d0 : Shape.Concatenates [S4096, S4096, S4096, S4096] S16384 0
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  slices_S4096x16384_S4096x4096_0_0 : S4096x16384.Slices ![0, 0] S4096x4096
  slices_S4096x16384_S4096x4096_0_4096 : S4096x16384.Slices ![0, 4096] S4096x4096
  slices_S4096x16384_S4096x4096_0_8192 : S4096x16384.Slices ![0, 8192] S4096x4096
  slices_S4096x16384_S4096x4096_0_12288 : S4096x16384.Slices ![0, 12288] S4096x4096
  bcast_S_S4096x4096 : S_.BroadcastsInDim S4096x4096 (![] : Fin 0 → Fin S4096x4096.rank)
  dot_S4096x8192_S8192x16384_S4096x16384_1_0_0_1_n_n_wf : DotDims.WF S4096x8192 S8192x16384 S4096x16384 [1] [0] [0] [1] [] []

variable [Facts₀]

def dot_S4096x8192_S8192x16384_S4096x16384_1_0_0_1_n_n : DotDims S4096x8192 S8192x16384 S4096x16384 where
  lhsContracting := [1]
  rhsContracting := [0]
  lhsNonContracting := [0]
  rhsNonContracting := [1]
  lhsBatch := []
  rhsBatch := []
  wf := dot_S4096x8192_S8192x16384_S4096x16384_1_0_0_1_n_n_wf

class Facts : Prop extends Facts₀ where

variable [Facts]
-- ==== Proof.Spec.lean ====
/-
  The LSTM cell as ONE function of the arrays, index by index, over the extended reals.

  With X = [x | h] the 4096 × 8192 activation, a gate's pre-activation at (r, j) is
      gate X W b (r, j) = (∑ k < 8192, X (r, k) · W (k, j)) + b j,
  the new cell state is  c · σ(gate_f) + tanh(gate_g) · σ(gate_i)  and the new hidden state is
  tanh(cell) · σ(gate_o), with σ x = 1 / (1 + e^(-x)).

  The contraction over k is also written as a sum of eight blocks of 1024 consecutive k, added
  block after block: sums on the extended reals regroup freely (addition is commutative and associative
  there, infinities included), so the blocked sum and the plain one are the same number.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The activation's shape, the weights', the biases', the states'. -/
abbrev SX : Shape := ⟨2, ![4096, 8192]⟩
abbrev SW : Shape := ⟨2, ![8192, 4096]⟩
abbrev SB : Shape := ⟨1, ![4096]⟩
abbrev SO : Shape := ⟨2, ![4096, 4096]⟩

/-- A natural number as a row or column (of 4096), and as a contraction position (of 8192): reduced modulo the
    extent, which changes nothing below it. -/
def pos4096 (n : ℕ) : Fin 4096 := ⟨n % 4096, Nat.mod_lt _ (by decide)⟩
def pos8192 (n : ℕ) : Fin 8192 := ⟨n % 8192, Nat.mod_lt _ (by decide)⟩

theorem pos4096_val (a : Fin 4096) : pos4096 a.val = a := Fin.ext (Nat.mod_eq_of_lt a.isLt)
theorem pos8192_val (a : Fin 8192) : pos8192 a.val = a := Fin.ext (Nat.mod_eq_of_lt a.isLt)

/-- One product of the contraction: X (r, k) · W (k, j). -/
def term (X : SX.Idx → EReal) (W : SW.Idx → EReal) (r j k : ℕ) : EReal :=
  X (ix2 (pos4096 r) (pos8192 k)) * W (ix2 (pos8192 k) (pos4096 j))

/-- Block b of the contraction: the 1024 products at k = 1024 b, …, 1024 b + 1023. -/
def blockSum (X : SX.Idx → EReal) (W : SW.Idx → EReal) (r j b : ℕ) : EReal :=
  ∑ kk : Fin 1024, term X W r j (1024 * b + kk.val)

/-- Blocks 0, …, nb added up. -/
def partialSum (X : SX.Idx → EReal) (W : SW.Idx → EReal) (r j nb : ℕ) : EReal :=
  ∑ b ∈ Finset.range (nb + 1), blockSum X W r j b

theorem partialSum_zero (X : SX.Idx → EReal) (W : SW.Idx → EReal) (r j : ℕ) :
    partialSum X W r j 0 = blockSum X W r j 0 := by
  show ∑ b ∈ Finset.range 1, blockSum X W r j b = _
  exact Finset.sum_range_one _

theorem partialSum_succ (X : SX.Idx → EReal) (W : SW.Idx → EReal) (r j nb : ℕ) :
    partialSum X W r j (nb + 1) = partialSum X W r j nb + blockSum X W r j (nb + 1) :=
  Finset.sum_range_succ _ _

/-- A sum over the first 1024 (nb + 1) naturals, block by block. -/
theorem sum_range_blocks {M : Type} [AddCommMonoid M] (g : ℕ → M) : ∀ nb : ℕ,
    ∑ i ∈ Finset.range (1024 * (nb + 1)), g i = ∑ b ∈ Finset.range (nb + 1), ∑ kk ∈ Finset.range 1024, g (1024 * b + kk)
  | 0 => by
    rw [show 1024 * (0 + 1) = 1024 from rfl, show (0 : ℕ) + 1 = 1 from rfl, Finset.sum_range_one]
    exact Finset.sum_congr rfl fun kk _ => by rw [Nat.mul_zero, Nat.zero_add]
  | nb + 1 => by
    rw [show 1024 * (nb + 1 + 1) = 1024 * (nb + 1) + 1024 from by ring, Finset.sum_range_add, sum_range_blocks g nb,
      Finset.sum_range_succ _ (nb + 1)]

/-- The whole contraction for row r and column j. -/
def dot (X : SX.Idx → EReal) (W : SW.Idx → EReal) (r j : ℕ) : EReal :=
  ∑ k : Fin 8192, X (ix2 (pos4096 r) k) * W (ix2 k (pos4096 j))

/-- The whole contraction is its eight blocks added up. -/
theorem dot_eq_partialSum (X : SX.Idx → EReal) (W : SW.Idx → EReal) (r j : ℕ) :
    dot X W r j = partialSum X W r j 7 := by
  have h1 : dot X W r j = ∑ k : Fin 8192, term X W r j k.val :=
    Finset.sum_congr rfl fun k _ => by unfold term; rw [pos8192_val]
  rw [h1, ← Finset.sum_range (fun k => term X W r j k)]
  show ∑ i ∈ Finset.range (1024 * (7 + 1)), term X W r j i = _
  rw [sum_range_blocks]
  unfold partialSum blockSum
  exact Finset.sum_congr rfl fun b _ => Finset.sum_range (fun kk => term X W r j (1024 * b + kk))

/-- A gate's pre-activation: the activation row times the weight column, plus the bias. -/
def gate (X : SX.Idx → EReal) (W : SW.Idx → EReal) (b : SB.Idx → EReal) (i : SO.Idx) : EReal :=
  (∑ k : Fin 8192, X (ix2 (i 0) k) * W (ix2 k (i 1))) + b (ix1 (i 1))

/-- The new cell state: c · σ(forget gate) + tanh(candidate gate) · σ(input gate). -/
def cellNew (X : SX.Idx → EReal) (Wf : SW.Idx → EReal) (bf : SB.Idx → EReal) (Wg : SW.Idx → EReal) (bg : SB.Idx → EReal)
    (Wi : SW.Idx → EReal) (bi : SB.Idx → EReal) (c : SO.Idx → EReal) : SO.Idx → EReal := fun i =>
  c i * Ideal.logistic (gate X Wf bf i) + Ideal.tanh (gate X Wg bg i) * Ideal.logistic (gate X Wi bi i)

/-- The new hidden state: tanh(new cell state) · σ(output gate). -/
def hiddenNew (X : SX.Idx → EReal) (Wf : SW.Idx → EReal) (bf : SB.Idx → EReal) (Wg : SW.Idx → EReal) (bg : SB.Idx → EReal)
    (Wi : SW.Idx → EReal) (bi : SB.Idx → EReal) (Wo : SW.Idx → EReal) (bo : SB.Idx → EReal) (c : SO.Idx → EReal) :
    SO.Idx → EReal := fun i =>
  Ideal.tanh (cellNew X Wf bf Wg bg Wi bi c i) * Ideal.logistic (gate X Wo bo i)

end Cert.Spec

end
-- ==== Proof.Blocks.lean ====
/-
  Which entries of which array a grid point reads and writes.

  The grid is 4 × 16 × 8: point t works on row block t / 128 (1024 rows), column block (t / 8) mod 16 (256 columns)
  and contraction block t mod 8 (1024 positions). The activation block is rows × contraction positions, a weight
  block contraction positions × columns, a bias block the columns, the old cell state's and the two results' blocks
  rows × columns. The results are written back at the last contraction block of each (row block, column block),
  and those 64 blocks tile the 4096 × 4096 results.
-/
import proofs.«112719_j704374636891_2_alg».proof.Proof.Gen.KernelIdeal.Value
import proofs.«112719_j704374636891_2_alg».proof.Proof.Spec

noncomputable section

namespace Cert.KernelIdeal.Cell

open Cert.KernelIdeal Cert.KernelIdeal.Gen Idealize.ShloMosaic Idealize.ShloMosaic.TcCoe Idealize.SL.Sem
open Idealize.ShloMosaic.ValueIdx Cert.Spec
open Idealize.ShloMosaic.Pipeline (Dat)
open scoped BigOperators

variable (m : (ℓ : Loc nD τ sig) → Buf (Elt Ideal) ℓ) (ρ : Dev nD → PrngReg)

/-! ## Which block of which array a point reads and writes -/

/-- The printed index maps, decided over the grid. -/
theorem idx_facts : ∀ t : Fin cfg0.N,
    win0_0.index t (0 : Fin 2) = t.val / 128 ∧ win0_0.index t (1 : Fin 2) = t.val % 8
    ∧ win0_1.index t (0 : Fin 2) = t.val % 8 ∧ win0_1.index t (1 : Fin 2) = t.val / 8 % 16
    ∧ win0_2.index t (0 : Fin 2) = t.val % 8 ∧ win0_2.index t (1 : Fin 2) = t.val / 8 % 16
    ∧ win0_3.index t (0 : Fin 2) = t.val % 8 ∧ win0_3.index t (1 : Fin 2) = t.val / 8 % 16
    ∧ win0_4.index t (0 : Fin 2) = t.val % 8 ∧ win0_4.index t (1 : Fin 2) = t.val / 8 % 16
    ∧ win0_5.index t (0 : Fin 1) = t.val / 8 % 16
    ∧ win0_6.index t (0 : Fin 1) = t.val / 8 % 16
    ∧ win0_7.index t (0 : Fin 1) = t.val / 8 % 16
    ∧ win0_8.index t (0 : Fin 1) = t.val / 8 % 16
    ∧ win0_9.index t (0 : Fin 2) = t.val / 128 ∧ win0_9.index t (1 : Fin 2) = t.val / 8 % 16
    ∧ win0_10.index t (0 : Fin 2) = t.val / 128 ∧ win0_10.index t (1 : Fin 2) = t.val / 8 % 16
    ∧ win0_11.index t (0 : Fin 2) = t.val / 128 ∧ win0_11.index t (1 : Fin 2) = t.val / 8 % 16 :=
  (by decide +kernel : ∀ t : Fin grid0.N, _)

/-- The activation block of point t, at (p, kk): row 1024 (t / 128) + p, contraction position 1024 (t mod 8) + kk. -/
theorem blkX (c : Dev nD) (t : Fin cfg0.N) (p kk : Fin 1024) :
    (iblk m c 0 t : Vec Ideal S1024x1024 .bf16) (ix2 p kk)
      = (V m c main_v1 : SX.Idx → EReal) (ix2 (pos4096 (1024 * (t.val / 128) + p.val)) (pos8192 (1024 * (t.val % 8) + kk.val))) := by
  obtain ⟨e0, e1, -⟩ := idx_facts t
  have hN : t.val < 512 := lt_of_lt_of_eq t.isLt N_0
  unfold iblk
  rw [View.read_apply]
  show V m c main_v1 (((cfg0.win 0).blk t).view.emb (ix2 p kk)) = V m c main_v1 _
  refine congrArg _ (funext fun a => Fin.ext ?_)
  match a with
  | ⟨0, _⟩ => show win0_0.index t (0 : Fin 2) * 1024 + 1 * p.val = (1024 * (t.val / 128) + p.val) % 4096; rw [e0]; omega
  | ⟨1, _⟩ => show win0_0.index t (1 : Fin 2) * 1024 + 1 * kk.val = (1024 * (t.val % 8) + kk.val) % 8192; rw [e1]; omega

/-- The forget gate's weight block of point t, at (kk, q): contraction position 1024 (t mod 8) + kk, column 256 ((t / 8) mod 16) + q. -/
theorem blkW0 (c : Dev nD) (t : Fin cfg0.N) (kk : Fin 1024) (q : Fin 256) :
    (iblk m c 1 t : Vec Ideal S1024x256 .f32) (ix2 kk q)
      = (V m c main_arg3 : SW.Idx → EReal) (ix2 (pos8192 (1024 * (t.val % 8) + kk.val)) (pos4096 (256 * (t.val / 8 % 16) + q.val))) := by
  obtain ⟨-, -, e0, e1, -⟩ := idx_facts t
  have hN : t.val < 512 := lt_of_lt_of_eq t.isLt N_0
  unfold iblk
  rw [View.read_apply]
  show V m c main_arg3 (((cfg0.win 1).blk t).view.emb (ix2 kk q)) = V m c main_arg3 _
  refine congrArg _ (funext fun a => Fin.ext ?_)
  match a with
  | ⟨0, _⟩ => show win0_1.index t (0 : Fin 2) * 1024 + 1 * kk.val = (1024 * (t.val % 8) + kk.val) % 8192; rw [e0]; omega
  | ⟨1, _⟩ => show win0_1.index t (1 : Fin 2) * 256 + 1 * q.val = (256 * (t.val / 8 % 16) + q.val) % 4096; rw [e1]; omega

/-- The candidate gate's weight block of point t, at (kk, q): contraction position 1024 (t mod 8) + kk, column 256 ((t / 8) mod 16) + q. -/
theorem blkW1 (c : Dev nD) (t : Fin cfg0.N) (kk : Fin 1024) (q : Fin 256) :
    (iblk m c 2 t : Vec Ideal S1024x256 .f32) (ix2 kk q)
      = (V m c main_arg5 : SW.Idx → EReal) (ix2 (pos8192 (1024 * (t.val % 8) + kk.val)) (pos4096 (256 * (t.val / 8 % 16) + q.val))) := by
  obtain ⟨-, -, -, -, e0, e1, -⟩ := idx_facts t
  have hN : t.val < 512 := lt_of_lt_of_eq t.isLt N_0
  unfold iblk
  rw [View.read_apply]
  show V m c main_arg5 (((cfg0.win 2).blk t).view.emb (ix2 kk q)) = V m c main_arg5 _
  refine congrArg _ (funext fun a => Fin.ext ?_)
  match a with
  | ⟨0, _⟩ => show win0_2.index t (0 : Fin 2) * 1024 + 1 * kk.val = (1024 * (t.val % 8) + kk.val) % 8192; rw [e0]; omega
  | ⟨1, _⟩ => show win0_2.index t (1 : Fin 2) * 256 + 1 * q.val = (256 * (t.val / 8 % 16) + q.val) % 4096; rw [e1]; omega

/-- The input gate's weight block of point t, at (kk, q): contraction position 1024 (t mod 8) + kk, column 256 ((t / 8) mod 16) + q. -/
theorem blkW2 (c : Dev nD) (t : Fin cfg0.N) (kk : Fin 1024) (q : Fin 256) :
    (iblk m c 3 t : Vec Ideal S1024x256 .f32) (ix2 kk q)
      = (V m c main_arg7 : SW.Idx → EReal) (ix2 (pos8192 (1024 * (t.val % 8) + kk.val)) (pos4096 (256 * (t.val / 8 % 16) + q.val))) := by
  obtain ⟨-, -, -, -, -, -, e0, e1, -⟩ := idx_facts t
  have hN : t.val < 512 := lt_of_lt_of_eq t.isLt N_0
  unfold iblk
  rw [View.read_apply]
  show V m c main_arg7 (((cfg0.win 3).blk t).view.emb (ix2 kk q)) = V m c main_arg7 _
  refine congrArg _ (funext fun a => Fin.ext ?_)
  match a with
  | ⟨0, _⟩ => show win0_3.index t (0 : Fin 2) * 1024 + 1 * kk.val = (1024 * (t.val % 8) + kk.val) % 8192; rw [e0]; omega
  | ⟨1, _⟩ => show win0_3.index t (1 : Fin 2) * 256 + 1 * q.val = (256 * (t.val / 8 % 16) + q.val) % 4096; rw [e1]; omega

/-- The output gate's weight block of point t, at (kk, q): contraction position 1024 (t mod 8) + kk, column 256 ((t / 8) mod 16) + q. -/
theorem blkW3 (c : Dev nD) (t : Fin cfg0.N) (kk : Fin 1024) (q : Fin 256) :
    (iblk m c 4 t : Vec Ideal S1024x256 .f32) (ix2 kk q)
      = (V m c main_arg9 : SW.Idx → EReal) (ix2 (pos8192 (1024 * (t.val % 8) + kk.val)) (pos4096 (256 * (t.val / 8 % 16) + q.val))) := by
  obtain ⟨-, -, -, -, -, -, -, -, e0, e1, -⟩ := idx_facts t
  have hN : t.val < 512 := lt_of_lt_of_eq t.isLt N_0
  unfold iblk
  rw [View.read_apply]
  show V m c main_arg9 (((cfg0.win 4).blk t).view.emb (ix2 kk q)) = V m c main_arg9 _
  refine congrArg _ (funext fun a => Fin.ext ?_)
  match a with
  | ⟨0, _⟩ => show win0_4.index t (0 : Fin 2) * 1024 + 1 * kk.val = (1024 * (t.val % 8) + kk.val) % 8192; rw [e0]; omega
  | ⟨1, _⟩ => show win0_4.index t (1 : Fin 2) * 256 + 1 * q.val = (256 * (t.val / 8 % 16) + q.val) % 4096; rw [e1]; omega

/-- The forget gate's bias block of point t, at q: entry 256 ((t / 8) mod 16) + q. -/
theorem blkB0 (c : Dev nD) (t : Fin cfg0.N) (q : Fin 256) :
    (iblk m c 5 t : Vec Ideal S256 .f32) (ix1 q)
      = (V m c main_arg4 : SB.Idx → EReal) (ix1 (pos4096 (256 * (t.val / 8 % 16) + q.val))) := by
  obtain ⟨-, -, -, -, -, -, -, -, -, -, e0, -⟩ := idx_facts t
  have hN : t.val < 512 := lt_of_lt_of_eq t.isLt N_0
  unfold iblk
  rw [View.read_apply]
  show V m c main_arg4 (((cfg0.win 5).blk t).view.emb (ix1 q)) = V m c main_arg4 _
  refine congrArg _ (funext fun a => Fin.ext ?_)
  match a with
  | ⟨0, _⟩ => show win0_5.index t (0 : Fin 1) * 256 + 1 * q.val = (256 * (t.val / 8 % 16) + q.val) % 4096; rw [e0]; omega

/-- The candidate gate's bias block of point t, at q: entry 256 ((t / 8) mod 16) + q. -/
theorem blkB1 (c : Dev nD) (t : Fin cfg0.N) (q : Fin 256) :
    (iblk m c 6 t : Vec Ideal S256 .f32) (ix1 q)
      = (V m c main_arg6 : SB.Idx → EReal) (ix1 (pos4096 (256 * (t.val / 8 % 16) + q.val))) := by
  obtain ⟨-, -, -, -, -, -, -, -, -, -, -, e0, -⟩ := idx_facts t
  have hN : t.val < 512 := lt_of_lt_of_eq t.isLt N_0
  unfold iblk
  rw [View.read_apply]
  show V m c main_arg6 (((cfg0.win 6).blk t).view.emb (ix1 q)) = V m c main_arg6 _
  refine congrArg _ (funext fun a => Fin.ext ?_)
  match a with
  | ⟨0, _⟩ => show win0_6.index t (0 : Fin 1) * 256 + 1 * q.val = (256 * (t.val / 8 % 16) + q.val) % 4096; rw [e0]; omega

/-- The input gate's bias block of point t, at q: entry 256 ((t / 8) mod 16) + q. -/
theorem blkB2 (c : Dev nD) (t : Fin cfg0.N) (q : Fin 256) :
    (iblk m c 7 t : Vec Ideal S256 .f32) (ix1 q)
      = (V m c main_arg8 : SB.Idx → EReal) (ix1 (pos4096 (256 * (t.val / 8 % 16) + q.val))) := by
  obtain ⟨-, -, -, -, -, -, -, -, -, -, -, -, e0, -⟩ := idx_facts t
  have hN : t.val < 512 := lt_of_lt_of_eq t.isLt N_0
  unfold iblk
  rw [View.read_apply]
  show V m c main_arg8 (((cfg0.win 7).blk t).view.emb (ix1 q)) = V m c main_arg8 _
  refine congrArg _ (funext fun a => Fin.ext ?_)
  match a with
  | ⟨0, _⟩ => show win0_7.index t (0 : Fin 1) * 256 + 1 * q.val = (256 * (t.val / 8 % 16) + q.val) % 4096; rw [e0]; omega

/-- The output gate's bias block of point t, at q: entry 256 ((t / 8) mod 16) + q. -/
theorem blkB3 (c : Dev nD) (t : Fin cfg0.N) (q : Fin 256) :
    (iblk m c 8 t : Vec Ideal S256 .f32) (ix1 q)
      = (V m c main_arg10 : SB.Idx → EReal) (ix1 (pos4096 (256 * (t.val / 8 % 16) + q.val))) := by
  obtain ⟨-, -, -, -, -, -, -, -, -, -, -, -, -, e0, -⟩ := idx_facts t
  have hN : t.val < 512 := lt_of_lt_of_eq t.isLt N_0
  unfold iblk
  rw [View.read_apply]
  show V m c main_arg10 (((cfg0.win 8).blk t).view.emb (ix1 q)) = V m c main_arg10 _
  refine congrArg _ (funext fun a => Fin.ext ?_)
  match a with
  | ⟨0, _⟩ => show win0_8.index t (0 : Fin 1) * 256 + 1 * q.val = (256 * (t.val / 8 % 16) + q.val) % 4096; rw [e0]; omega

/-- The old cell state's block of point t, at (p, q). -/
theorem blkC (c : Dev nD) (t : Fin cfg0.N) (p : Fin 1024) (q : Fin 256) :
    (iblk m c 9 t : Vec Ideal S1024x256 .f32) (ix2 p q)
      = (V m c main_arg2 : SO.Idx → EReal) (ix2 (pos4096 (1024 * (t.val / 128) + p.val)) (pos4096 (256 * (t.val / 8 % 16) + q.val))) := by
  obtain ⟨-, -, -, -, -, -, -, -, -, -, -, -, -, -, e0, e1, -⟩ := idx_facts t
  have hN : t.val < 512 := lt_of_lt_of_eq t.isLt N_0
  unfold iblk
  rw [View.read_apply]
  show V m c main_arg2 (((cfg0.win 9).blk t).view.emb (ix2 p q)) = V m c main_arg2 _
  refine congrArg _ (funext fun a => Fin.ext ?_)
  match a with
  | ⟨0, _⟩ => show win0_9.index t (0 : Fin 2) * 1024 + 1 * p.val = (1024 * (t.val / 128) + p.val) % 4096; rw [e0]; omega
  | ⟨1, _⟩ => show win0_9.index t (1 : Fin 2) * 256 + 1 * q.val = (256 * (t.val / 8 % 16) + q.val) % 4096; rw [e1]; omega

/-- Where point t's result blocks sit in the result arrays. -/
theorem emb10 (t : Fin cfg0.N) (p : Fin 1024) (q : Fin 256) :
    ((cfg0.win 10).blk t).view.emb (ix2 p q) = (ix2 (pos4096 (1024 * (t.val / 128) + p.val)) (pos4096 (256 * (t.val / 8 % 16) + q.val)) : SO.Idx) := by
  obtain ⟨-, -, -, -, -, -, -, -, -, -, -, -, -, -, -, -, e0, e1, -⟩ := idx_facts t
  have hN : t.val < 512 := lt_of_lt_of_eq t.isLt N_0
  refine funext fun a => Fin.ext ?_
  match a with
  | ⟨0, _⟩ => show win0_10.index t (0 : Fin 2) * 1024 + 1 * p.val = (1024 * (t.val / 128) + p.val) % 4096; rw [e0]; omega
  | ⟨1, _⟩ => show win0_10.index t (1 : Fin 2) * 256 + 1 * q.val = (256 * (t.val / 8 % 16) + q.val) % 4096; rw [e1]; omega
theorem emb11 (t : Fin cfg0.N) (p : Fin 1024) (q : Fin 256) :
    ((cfg0.win 11).blk t).view.emb (ix2 p q) = (ix2 (pos4096 (1024 * (t.val / 128) + p.val)) (pos4096 (256 * (t.val / 8 % 16) + q.val)) : SO.Idx) := by
  obtain ⟨-, -, -, -, -, -, -, -, -, -, -, -, -, -, -, -, -, -, e0, e1⟩ := idx_facts t
  have hN : t.val < 512 := lt_of_lt_of_eq t.isLt N_0
  refine funext fun a => Fin.ext ?_
  match a with
  | ⟨0, _⟩ => show win0_11.index t (0 : Fin 2) * 1024 + 1 * p.val = (1024 * (t.val / 128) + p.val) % 4096; rw [e0]; omega
  | ⟨1, _⟩ => show win0_11.index t (1 : Fin 2) * 256 + 1 * q.val = (256 * (t.val / 8 % 16) + q.val) % 4096; rw [e1]; omega

/-! ## The write-backs tile the results -/

/-- Every entry of the results is in the block of the last contraction step of its row block and column block. -/
theorem cover10 (i : S4096x4096.Idx) : ∃ t : Fin cfg0.N, (cfg0.win 10).flush t = true ∧ i ∈ ((cfg0.win 10).blk t).view.set := by
  have hi0 : (i 0).val < 4096 := (i 0).isLt
  have hi1 : (i 1).val < 4096 := (i 1).isLt
  have hN : cfg0.N = 512 := N_0
  let t : Fin cfg0.N := ⟨128 * ((i 0).val / 1024) + 8 * ((i 1).val / 256) + 7, by rw [hN]; omega⟩
  have ht : t.val = 128 * ((i 0).val / 1024) + 8 * ((i 1).val / 256) + 7 := rfl
  obtain ⟨-, -, -, -, -, -, -, -, -, -, -, -, -, -, -, -, e0, e1, -⟩ := idx_facts t
  refine ⟨t, (flush0_10 t).mpr (by omega), ?_⟩
  show i ∈ ((View.whole main_v2_0).slice (win0_10.rect t)).set
  rw [View.set_slice_whole, Rect.mem_set_unit]
  intro a
  match a with
  | ⟨0, _⟩ => show win0_10.index t (0 : Fin 2) * 1024 ≤ (i 0).val ∧ (i 0).val < win0_10.index t (0 : Fin 2) * 1024 + 1024; rw [e0]; omega
  | ⟨1, _⟩ => show win0_10.index t (1 : Fin 2) * 256 ≤ (i 1).val ∧ (i 1).val < win0_10.index t (1 : Fin 2) * 256 + 256; rw [e1]; omega

theorem cover11 (i : S4096x4096.Idx) : ∃ t : Fin cfg0.N, (cfg0.win 11).flush t = true ∧ i ∈ ((cfg0.win 11).blk t).view.set := by
  have hi0 : (i 0).val < 4096 := (i 0).isLt
  have hi1 : (i 1).val < 4096 := (i 1).isLt
  have hN : cfg0.N = 512 := N_0
  let t : Fin cfg0.N := ⟨128 * ((i 0).val / 1024) + 8 * ((i 1).val / 256) + 7, by rw [hN]; omega⟩
  have ht : t.val = 128 * ((i 0).val / 1024) + 8 * ((i 1).val / 256) + 7 := rfl
  obtain ⟨-, -, -, -, -, -, -, -, -, -, -, -, -, -, -, -, -, -, e0, e1⟩ := idx_facts t
  refine ⟨t, (flush0_11 t).mpr (by omega), ?_⟩
  show i ∈ ((View.whole main_v2_1).slice (win0_11.rect t)).set
  rw [View.set_slice_whole, Rect.mem_set_unit]
  intro a
  match a with
  | ⟨0, _⟩ => show win0_11.index t (0 : Fin 2) * 1024 ≤ (i 0).val ∧ (i 0).val < win0_11.index t (0 : Fin 2) * 1024 + 1024; rw [e0]; omega
  | ⟨1, _⟩ => show win0_11.index t (1 : Fin 2) * 256 ≤ (i 1).val ∧ (i 1).val < win0_11.index t (1 : Fin 2) * 256 + 256; rw [e1]; omega

end Cert.KernelIdeal.Cell

end
-- ==== Proof.Pieces.lean ====
/-
  What one run of the kernel body leaves behind, as values.

  Each of the four accumulators is stored whole, once, with  old contents + activation block × weight block
  (at the first contraction step the old contents are the zero block just stored); at the last contraction step
  the two output blocks are stored whole, once each, computed from the four accumulators as just updated, the bias
  rows and the old cell block. A buffer stored whole through one rectangle at offset zero holds exactly the
  stored value, and a load of the whole buffer reads it back.
-/
import proofs.«112719_j704374636891_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- Accumulator 0 after a point of case A: the zero block plus this point's block product. -/
theorem sout0_A_0_eq (c : Dev nD) (i : grid0.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : cond0_0 i) (hc1 : ¬cond0_1 i)
    (x0 : Vec F S1024x1024 .bf16) (x1 : Vec F S1024x256 .f32) (x2 : Vec F S1024x256 .f32) (x3 : Vec F S1024x256 .f32) (x4 : Vec F S1024x256 .f32) (x5 : Vec F S256 .f32) (x6 : Vec F S256 .f32) (x7 : Vec F S256 .f32) (x8 : Vec F S256 .f32) (x9 : Vec F S1024x256 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay11 x0 x1 (k0_pay5 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S1024x256) hz, View.ld_unit_zero (S := S256) hz1]

/-- Accumulator 1 after a point of case A: the zero block plus this point's block product. -/
theorem sout0_A_1_eq (c : Dev nD) (i : grid0.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : cond0_0 i) (hc1 : ¬cond0_1 i)
    (x0 : Vec F S1024x1024 .bf16) (x1 : Vec F S1024x256 .f32) (x2 : Vec F S1024x256 .f32) (x3 : Vec F S1024x256 .f32) (x4 : Vec F S1024x256 .f32) (x5 : Vec F S256 .f32) (x6 : Vec F S256 .f32) (x7 : Vec F S256 .f32) (x8 : Vec F S256 .f32) (x9 : Vec F S1024x256 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay12 x0 x2 (k0_pay6 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S1024x256) hz, View.ld_unit_zero (S := S256) hz1]

/-- Accumulator 2 after a point of case A: the zero block plus this point's block product. -/
theorem sout0_A_2_eq (c : Dev nD) (i : grid0.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : cond0_0 i) (hc1 : ¬cond0_1 i)
    (x0 : Vec F S1024x1024 .bf16) (x1 : Vec F S1024x256 .f32) (x2 : Vec F S1024x256 .f32) (x3 : Vec F S1024x256 .f32) (x4 : Vec F S1024x256 .f32) (x5 : Vec F S256 .f32) (x6 : Vec F S256 .f32) (x7 : Vec F S256 .f32) (x8 : Vec F S256 .f32) (x9 : Vec F S1024x256 .f32) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay1 (k0_pay13 x0 x3 (k0_pay7 (F := F))) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S1024x256) hz, View.ld_unit_zero (S := S256) hz1]

/-- Accumulator 3 after a point of case A: the zero block plus this point's block product. -/
theorem sout0_A_3_eq (c : Dev nD) (i : grid0.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : cond0_0 i) (hc1 : ¬cond0_1 i)
    (x0 : Vec F S1024x1024 .bf16) (x1 : Vec F S1024x256 .f32) (x2 : Vec F S1024x256 .f32) (x3 : Vec F S1024x256 .f32) (x4 : Vec F S1024x256 .f32) (x5 : Vec F S256 .f32) (x6 : Vec F S256 .f32) (x7 : Vec F S256 .f32) (x8 : Vec F S256 .f32) (x9 : Vec F S1024x256 .f32) :
    sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay2 (k0_pay9 x0) (k0_pay10 x4) (k0_pay8 (F := F)) := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S1024x256) hz, View.ld_unit_zero (S := S256) hz1]

/-- Accumulator 0 after a point of case B: what the point before left plus this point's block product. -/
theorem sout0_B_0_eq (c : Dev nD) (i : grid0.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : ¬cond0_1 i)
    (x0 : Vec F S1024x1024 .bf16) (x1 : Vec F S1024x256 .f32) (x2 : Vec F S1024x256 .f32) (x3 : Vec F S1024x256 .f32) (x4 : Vec F S1024x256 .f32) (x5 : Vec F S256 .f32) (x6 : Vec F S256 .f32) (x7 : Vec F S256 .f32) (x8 : Vec F S256 .f32) (x9 : Vec F S1024x256 .f32) (xs0 : Vec F S1024x256 .f32) (xs1 : Vec F S1024x256 .f32) (xs2 : Vec F S1024x256 .f32) (xs3 : Vec F S1024x256 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay11 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S1024x256) hz, View.ld_unit_zero (S := S256) hz1]

/-- Accumulator 1 after a point of case B: what the point before left plus this point's block product. -/
theorem sout0_B_1_eq (c : Dev nD) (i : grid0.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : ¬cond0_1 i)
    (x0 : Vec F S1024x1024 .bf16) (x1 : Vec F S1024x256 .f32) (x2 : Vec F S1024x256 .f32) (x3 : Vec F S1024x256 .f32) (x4 : Vec F S1024x256 .f32) (x5 : Vec F S256 .f32) (x6 : Vec F S256 .f32) (x7 : Vec F S256 .f32) (x8 : Vec F S256 .f32) (x9 : Vec F S1024x256 .f32) (xs0 : Vec F S1024x256 .f32) (xs1 : Vec F S1024x256 .f32) (xs2 : Vec F S1024x256 .f32) (xs3 : Vec F S1024x256 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay12 x0 x2 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S1024x256) hz, View.ld_unit_zero (S := S256) hz1]

/-- Accumulator 2 after a point of case B: what the point before left plus this point's block product. -/
theorem sout0_B_2_eq (c : Dev nD) (i : grid0.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : ¬cond0_1 i)
    (x0 : Vec F S1024x1024 .bf16) (x1 : Vec F S1024x256 .f32) (x2 : Vec F S1024x256 .f32) (x3 : Vec F S1024x256 .f32) (x4 : Vec F S1024x256 .f32) (x5 : Vec F S256 .f32) (x6 : Vec F S256 .f32) (x7 : Vec F S256 .f32) (x8 : Vec F S256 .f32) (x9 : Vec F S1024x256 .f32) (xs0 : Vec F S1024x256 .f32) (xs1 : Vec F S1024x256 .f32) (xs2 : Vec F S1024x256 .f32) (xs3 : Vec F S1024x256 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay1 (k0_pay13 x0 x3 xs2) := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S1024x256) hz, View.ld_unit_zero (S := S256) hz1]

/-- Accumulator 3 after a point of case B: what the point before left plus this point's block product. -/
theorem sout0_B_3_eq (c : Dev nD) (i : grid0.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : ¬cond0_1 i)
    (x0 : Vec F S1024x1024 .bf16) (x1 : Vec F S1024x256 .f32) (x2 : Vec F S1024x256 .f32) (x3 : Vec F S1024x256 .f32) (x4 : Vec F S1024x256 .f32) (x5 : Vec F S256 .f32) (x6 : Vec F S256 .f32) (x7 : Vec F S256 .f32) (x8 : Vec F S256 .f32) (x9 : Vec F S1024x256 .f32) (xs0 : Vec F S1024x256 .f32) (xs1 : Vec F S1024x256 .f32) (xs2 : Vec F S1024x256 .f32) (xs3 : Vec F S1024x256 .f32) :
    sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay2 (k0_pay9 x0) (k0_pay10 x4) xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S1024x256) hz, View.ld_unit_zero (S := S256) hz1]

/-- Accumulator 0 after a point of case C: what the point before left plus this point's block product. -/
theorem sout0_C_0_eq (c : Dev nD) (i : grid0.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i)
    (x0 : Vec F S1024x1024 .bf16) (x1 : Vec F S1024x256 .f32) (x2 : Vec F S1024x256 .f32) (x3 : Vec F S1024x256 .f32) (x4 : Vec F S1024x256 .f32) (x5 : Vec F S256 .f32) (x6 : Vec F S256 .f32) (x7 : Vec F S256 .f32) (x8 : Vec F S256 .f32) (x9 : Vec F S1024x256 .f32) (xs0 : Vec F S1024x256 .f32) (xs1 : Vec F S1024x256 .f32) (xs2 : Vec F S1024x256 .f32) (xs3 : Vec F S1024x256 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay11 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S1024x256) hz, View.ld_unit_zero (S := S256) hz1]

/-- Accumulator 1 after a point of case C: what the point before left plus this point's block product. -/
theorem sout0_C_1_eq (c : Dev nD) (i : grid0.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i)
    (x0 : Vec F S1024x1024 .bf16) (x1 : Vec F S1024x256 .f32) (x2 : Vec F S1024x256 .f32) (x3 : Vec F S1024x256 .f32) (x4 : Vec F S1024x256 .f32) (x5 : Vec F S256 .f32) (x6 : Vec F S256 .f32) (x7 : Vec F S256 .f32) (x8 : Vec F S256 .f32) (x9 : Vec F S1024x256 .f32) (xs0 : Vec F S1024x256 .f32) (xs1 : Vec F S1024x256 .f32) (xs2 : Vec F S1024x256 .f32) (xs3 : Vec F S1024x256 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay12 x0 x2 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S1024x256) hz, View.ld_unit_zero (S := S256) hz1]

/-- Accumulator 2 after a point of case C: what the point before left plus this point's block product. -/
theorem sout0_C_2_eq (c : Dev nD) (i : grid0.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i)
    (x0 : Vec F S1024x1024 .bf16) (x1 : Vec F S1024x256 .f32) (x2 : Vec F S1024x256 .f32) (x3 : Vec F S1024x256 .f32) (x4 : Vec F S1024x256 .f32) (x5 : Vec F S256 .f32) (x6 : Vec F S256 .f32) (x7 : Vec F S256 .f32) (x8 : Vec F S256 .f32) (x9 : Vec F S1024x256 .f32) (xs0 : Vec F S1024x256 .f32) (xs1 : Vec F S1024x256 .f32) (xs2 : Vec F S1024x256 .f32) (xs3 : Vec F S1024x256 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay1 (k0_pay13 x0 x3 xs2) := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S1024x256) hz, View.ld_unit_zero (S := S256) hz1]

/-- Accumulator 3 after a point of case C: what the point before left plus this point's block product. -/
theorem sout0_C_3_eq (c : Dev nD) (i : grid0.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i)
    (x0 : Vec F S1024x1024 .bf16) (x1 : Vec F S1024x256 .f32) (x2 : Vec F S1024x256 .f32) (x3 : Vec F S1024x256 .f32) (x4 : Vec F S1024x256 .f32) (x5 : Vec F S256 .f32) (x6 : Vec F S256 .f32) (x7 : Vec F S256 .f32) (x8 : Vec F S256 .f32) (x9 : Vec F S1024x256 .f32) (xs0 : Vec F S1024x256 .f32) (xs1 : Vec F S1024x256 .f32) (xs2 : Vec F S1024x256 .f32) (xs3 : Vec F S1024x256 .f32) :
    sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay2 (k0_pay9 x0) (k0_pay10 x4) xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S1024x256) hz, View.ld_unit_zero (S := S256) hz1]

/-- Output block of the cell state at a last contraction step, from the accumulators as this point updates them. -/
theorem out0_C_10_eq (c : Dev nD) (i : grid0.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i)
    (x0 : Vec F S1024x1024 .bf16) (x1 : Vec F S1024x256 .f32) (x2 : Vec F S1024x256 .f32) (x3 : Vec F S1024x256 .f32) (x4 : Vec F S1024x256 .f32) (x5 : Vec F S256 .f32) (x6 : Vec F S256 .f32) (x7 : Vec F S256 .f32) (x8 : Vec F S256 .f32) (x9 : Vec F S1024x256 .f32) (xs0 : Vec F S1024x256 .f32) (xs1 : Vec F S1024x256 .f32) (xs2 : Vec F S1024x256 .f32) (xs3 : Vec F S1024x256 .f32) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay3 (k0_pay11 x0 x1 xs0) x5 (k0_pay12 x0 x2 xs1) x6 (k0_pay1 (k0_pay13 x0 x3 xs2)) x7 x9 := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S1024x256) hz, View.ld_unit_zero (S := S256) hz1]

/-- Output block of the hidden state at a last contraction step, from the accumulators as this point updates them. -/
theorem out0_C_11_eq (c : Dev nD) (i : grid0.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i)
    (x0 : Vec F S1024x1024 .bf16) (x1 : Vec F S1024x256 .f32) (x2 : Vec F S1024x256 .f32) (x3 : Vec F S1024x256 .f32) (x4 : Vec F S1024x256 .f32) (x5 : Vec F S256 .f32) (x6 : Vec F S256 .f32) (x7 : Vec F S256 .f32) (x8 : Vec F S256 .f32) (x9 : Vec F S1024x256 .f32) (xs0 : Vec F S1024x256 .f32) (xs1 : Vec F S1024x256 .f32) (xs2 : Vec F S1024x256 .f32) (xs3 : Vec F S1024x256 .f32) :
    out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay4 (k0_pay11 x0 x1 xs0) x5 (k0_pay12 x0 x2 xs1) x6 (k0_pay1 (k0_pay13 x0 x3 xs2)) x7 (k0_pay2 (k0_pay9 x0) (k0_pay10 x4) xs3) x8 x9 := by
  unfold out0_C_11
  rw [View.read_writes_eq_canon _ _ _ (cover0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S1024x256) hz, View.ld_unit_zero (S := S256) hz1]

end Cert.KernelIdeal.Pieces

end
-- ==== Proof.Payload.lean ====
/-
  The kernel body's arithmetic, read at an index over the extended reals.

  One grid point adds to each of the four accumulators the product of the activation block (1024 × 1024) with
  that gate's weight block (1024 × 256): at (p, q) the accumulator grows by ∑ kk < 1024, a (p, kk) · w (kk, q)
  (the conversions to and from bf16 change nothing over the extended reals). At the last contraction step the
  four finished accumulators, the four bias rows (each broadcast down the 1024 rows) and the old cell block give
  the new cell block  c · σ(F + bf) + tanh(G + bg) · σ(I + bi)  and the new hidden block  tanh(cell) · σ(O + bo).
-/
import proofs.«112719_j704374636891_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- Where the block product's operands are read: the left one at (row of the result, contraction position), the right
    one at (contraction position, column of the result). -/
theorem lhs_row (i : S1024x256.Idx) (k : dot_S1024x1024_S1024x256_S1024x256_1_0_0_1_n_n.contr.Idx) : (dot_S1024x1024_S1024x256_S1024x256_1_0_0_1_n_n.lhsIdx i k 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_depth (i : S1024x256.Idx) (k : dot_S1024x1024_S1024x256_S1024x256_1_0_0_1_n_n.contr.Idx) : (dot_S1024x1024_S1024x256_S1024x256_1_0_0_1_n_n.lhsIdx i k 1).val = (k ⟨0, by decide⟩).val :=
  dot_S1024x1024_S1024x256_S1024x256_1_0_0_1_n_n.lhsIdx_val_of_single rfl i k
theorem rhs_depth (i : S1024x256.Idx) (k : dot_S1024x1024_S1024x256_S1024x256_1_0_0_1_n_n.contr.Idx) : (dot_S1024x1024_S1024x256_S1024x256_1_0_0_1_n_n.rhsIdx i k 0).val = (k ⟨0, by decide⟩).val :=
  dot_S1024x1024_S1024x256_S1024x256_1_0_0_1_n_n.rhsIdx_val_of_single rfl i k
theorem rhs_col (i : S1024x256.Idx) (k : dot_S1024x1024_S1024x256_S1024x256_1_0_0_1_n_n.contr.Idx) : (dot_S1024x1024_S1024x256_S1024x256_1_0_0_1_n_n.rhsIdx i k 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The block product into a zero accumulator, at (p, q): the 1024 products of row p of the left block with
    column q of the right one. -/
theorem matmul_zero_apply (a : FVec Ideal S1024x1024 .bf16) (b : FVec Ideal S1024x256 .bf16) (p : Fin 1024) (q : Fin 256) :
    matmul dot_S1024x1024_S1024x256_S1024x256_1_0_0_1_n_n none a b (constant (F := Ideal) S1024x256 .f32 0x00000000#32) (ix2 p q)
      = ∑ kk : Fin 1024, a (ix2 p kk) * b (ix2 kk q) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 p q) ((ValueIdx.contrEquiv1 dot_S1024x1024_S1024x256_S1024x256_1_0_0_1_n_n 1024 rfl rfl).symm k) = ix2 p k := funext fun ax => Fin.ext (by
    match ax with
    | ⟨0, _⟩ => exact lhs_row _ _
    | ⟨1, _⟩ => exact (lhs_depth _ _).trans hk)
  have er : dot_S1024x1024_S1024x256_S1024x256_1_0_0_1_n_n.rhsIdx (ix2 p q) ((ValueIdx.contrEquiv1 dot_S1024x1024_S1024x256_S1024x256_1_0_0_1_n_n 1024 rfl rfl).symm k) = ix2 k q := funext fun ax => Fin.ext (by
    match ax with
    | ⟨0, _⟩ => exact (rhs_depth _ _).trans hk
    | ⟨1, _⟩ => exact rhs_col _ _)
  rw [el, er]

/-- One accumulation step of the forget gate's accumulator. -/
theorem pay11_apply (x0 : Vec Ideal S1024x1024 .bf16) (w acc : Vec Ideal S1024x256 .f32) (p : Fin 1024) (q : Fin 256) :
    k0_pay11 (F := Ideal) x0 w acc (ix2 p q) = acc (ix2 p q) + ∑ kk : Fin 1024, x0 (ix2 p kk) * w (ix2 kk q) := by
  unfold k0_pay11 k0_pay9
  dsimp only
  simp only [shapeCast_self]
  rw [addf_apply, matmul_zero_apply]
  rfl

/-- One accumulation step of the candidate gate's accumulator. -/
theorem pay12_apply (x0 : Vec Ideal S1024x1024 .bf16) (w acc : Vec Ideal S1024x256 .f32) (p : Fin 1024) (q : Fin 256) :
    k0_pay12 (F := Ideal) x0 w acc (ix2 p q) = acc (ix2 p q) + ∑ kk : Fin 1024, x0 (ix2 p kk) * w (ix2 kk q) := by
  unfold k0_pay12 k0_pay9
  dsimp only
  simp only [shapeCast_self]
  rw [addf_apply, matmul_zero_apply]
  rfl

/-- One accumulation step of the input gate's accumulator. -/
theorem pay13_apply (x0 : Vec Ideal S1024x1024 .bf16) (w acc : Vec Ideal S1024x256 .f32) (p : Fin 1024) (q : Fin 256) :
    k0_pay1 (F := Ideal) (k0_pay13 (F := Ideal) x0 w acc) (ix2 p q) = acc (ix2 p q) + ∑ kk : Fin 1024, x0 (ix2 p kk) * w (ix2 kk q) := by
  unfold k0_pay1 k0_pay13 k0_pay9
  dsimp only
  simp only [shapeCast_self]
  rw [addf_apply, matmul_zero_apply]
  rfl

/-- One accumulation step of the output gate's accumulator. -/
theorem pay2_apply (x0 : Vec Ideal S1024x1024 .bf16) (w acc : Vec Ideal S1024x256 .f32) (p : Fin 1024) (q : Fin 256) :
    k0_pay2 (F := Ideal) (k0_pay9 (F := Ideal) x0) (k0_pay10 (F := Ideal) w) acc (ix2 p q)
      = acc (ix2 p q) + ∑ kk : Fin 1024, x0 (ix2 p kk) * w (ix2 kk q) := by
  unfold k0_pay2 k0_pay9 k0_pay10
  dsimp only
  simp only [shapeCast_self]
  rw [addf_apply, matmul_zero_apply]
  rfl

/-- The zero block the accumulators are reset to. -/
theorem pay5_apply (i : S1024x256.Idx) : k0_pay5 (F := Ideal) i = 0 := by
  unfold k0_pay5; simp only [shapeCast_self]; exact Ideal.ofBits_zero_f32
theorem pay6_apply (i : S1024x256.Idx) : k0_pay6 (F := Ideal) i = 0 := by
  unfold k0_pay6; simp only [shapeCast_self]; exact Ideal.ofBits_zero_f32
theorem pay7_apply (i : S1024x256.Idx) : k0_pay7 (F := Ideal) i = 0 := by
  unfold k0_pay7; simp only [shapeCast_self]; exact Ideal.ofBits_zero_f32
theorem pay8_apply (i : S1024x256.Idx) : k0_pay8 (F := Ideal) i = 0 := by
  unfold k0_pay8; simp only [shapeCast_self]; exact Ideal.ofBits_zero_f32

/-- A bias row broadcast down the rows of a block: at (p, q) it is the bias at q. -/
theorem bias_apply (b : Vec Ideal S256 .f32) (p : Fin 1024) (q : Fin 256) :
    broadcastTo S1024x256 (shapeCast S1x256 b shapeCasts_S256_S1x256) broadcasts_S1x256_S1024x256 (ix2 p q) = b (ix1 q) := by
  rw [broadcastTo_1b_ab_apply, shapeCast_a_1a_apply]

/-- The new cell block at (p, q). -/
theorem pay3_apply (aF : Vec Ideal S1024x256 .f32) (bF : Vec Ideal S256 .f32) (aG : Vec Ideal S1024x256 .f32) (bG : Vec Ideal S256 .f32)
    (aI : Vec Ideal S1024x256 .f32) (bI : Vec Ideal S256 .f32) (cOld : Vec Ideal S1024x256 .f32) (p : Fin 1024) (q : Fin 256) :
    k0_pay3 (F := Ideal) aF bF aG bG aI bI cOld (ix2 p q)
      = cOld (ix2 p q) * Ideal.logistic (aF (ix2 p q) + bF (ix1 q))
        + Ideal.tanh (aG (ix2 p q) + bG (ix1 q)) * Ideal.logistic (aI (ix2 p q) + bI (ix1 q)) := by
  unfold k0_pay3
  simp only [addf_apply, mulf_apply, logistic, tanh, Ideal.logistic_def, Ideal.tanh_def]
  rw [bias_apply bF p q, bias_apply bG p q, bias_apply bI p q]

/-- The new hidden block at (p, q). -/
theorem pay4_apply (aF : Vec Ideal S1024x256 .f32) (bF : Vec Ideal S256 .f32) (aG : Vec Ideal S1024x256 .f32) (bG : Vec Ideal S256 .f32)
    (aI : Vec Ideal S1024x256 .f32) (bI : Vec Ideal S256 .f32) (aO : Vec Ideal S1024x256 .f32) (bO : Vec Ideal S256 .f32)
    (cOld : Vec Ideal S1024x256 .f32) (p : Fin 1024) (q : Fin 256) :
    k0_pay4 (F := Ideal) aF bF aG bG aI bI aO bO cOld (ix2 p q)
      = Ideal.tanh (k0_pay3 (F := Ideal) aF bF aG bG aI bI cOld (ix2 p q)) * Ideal.logistic (aO (ix2 p q) + bO (ix1 q)) := by
  unfold k0_pay4
  simp only [addf_apply, mulf_apply, logistic, tanh, Ideal.logistic_def, Ideal.tanh_def]
  rw [bias_apply bO p q]

end Cert.KernelIdeal.Body

end
-- ==== Proof.Accum.lean ====
/-
  The four accumulators, point by point.

  After the point with contraction block b, each accumulator holds at (p, q) the first b + 1 blocks of its gate's
  contraction, for row 1024 (t / 128) + p and column 256 ((t / 8) mod 16) + q: the first block of a sweep is added
  to the zero block, every later one to what the point before left (induction on the point). At the last block
  (b = 7) that is the whole contraction.
-/
import proofs.«112719_j704374636891_2_alg».proof.Proof.Blocks
import proofs.«112719_j704374636891_2_alg».proof.Proof.Pieces
import proofs.«112719_j704374636891_2_alg».proof.Proof.Payload

noncomputable section

namespace Cert.KernelIdeal.Cell

open Cert.KernelIdeal Cert.KernelIdeal.Gen Idealize.ShloMosaic Idealize.ShloMosaic.TcCoe Idealize.SL.Sem
open Idealize.ShloMosaic.ValueIdx Cert.Spec
open Idealize.ShloMosaic.Pipeline (Dat)
open scoped BigOperators

variable (m : (ℓ : Loc nD τ sig) → Buf (Elt Ideal) ℓ) (ρ : Dev nD → PrngReg)

/-! ## The accumulators, point by point -/

/-- A block product at (p, q) whose factors are the activation's and a weight matrix's entries for contraction block b
    is block b of the contraction for that row and column. -/
theorem block_eq (X : SX.Idx → EReal) (W : SW.Idx → EReal) (r j b : ℕ) (x : Vec Ideal S1024x1024 .bf16) (w : Vec Ideal S1024x256 .f32)
    (p : Fin 1024) (q : Fin 256)
    (hx : ∀ kk : Fin 1024, x (ix2 p kk) = X (ix2 (pos4096 r) (pos8192 (1024 * b + kk.val))))
    (hw : ∀ kk : Fin 1024, w (ix2 kk q) = W (ix2 (pos8192 (1024 * b + kk.val)) (pos4096 j))) :
    ∑ kk : Fin 1024, x (ix2 p kk) * w (ix2 kk q) = blockSum X W r j b := by
  unfold blockSum term
  exact Finset.sum_congr rfl fun kk _ => by rw [hx kk, hw kk]

/-- The forget gate's accumulator after point n: blocks 0, …, n mod 8 of the contraction, for the point's rows and columns. -/
theorem acc0 (c : Dev nD) : ∀ (n : ℕ) (h : n < cfg0.N) (p : Fin 1024) (q : Fin 256),
    (outsAt0 m c n h).2.2.1 (ix2 p q)
      = partialSum (V m c main_v1 : SX.Idx → EReal) (V m c main_arg3 : SW.Idx → EReal) (1024 * (n / 128) + p.val) (256 * (n / 8 % 16) + q.val) (n % 8)
  | 0, h, p, q => by
    rw [outsAt0_A m c ⟨0, h⟩ rfl (by show ¬(0 % 8 = 7); decide)]
    dsimp only
    rw [Pieces.sout0_A_0_eq]
    refine (Body.pay11_apply _ _ _ p q).trans ?_
    rw [Body.pay5_apply, zero_add]
    rw [block_eq (V m c main_v1) (V m c main_arg3) _ _ _ _ _ p q (fun kk => blkX m c ⟨0, h⟩ p kk) (fun kk => blkW0 m c ⟨0, h⟩ kk q)]
    exact (partialSum_zero _ _ _ _).symm
  | n + 1, h, p, q => by
    have hN : n + 1 < 512 := lt_of_lt_of_eq h N_0
    have IH := acc0 c n (Nat.lt_of_succ_lt h) p q
    by_cases h0 : (n + 1) % 8 = 0
    · have h1 : ¬(n + 1) % 8 = 7 := by omega
      rw [outsAt0_A m c ⟨n + 1, h⟩ h0 h1]
      dsimp only
      rw [Pieces.sout0_A_0_eq]
      refine (Body.pay11_apply _ _ _ p q).trans ?_
      rw [Body.pay5_apply, zero_add]
      rw [block_eq (V m c main_v1) (V m c main_arg3) _ _ _ _ _ p q (fun kk => blkX m c ⟨n + 1, h⟩ p kk) (fun kk => blkW0 m c ⟨n + 1, h⟩ kk q)]
      show blockSum _ _ _ _ ((n + 1) % 8) = partialSum _ _ _ _ ((n + 1) % 8)
      rw [h0]
      exact (partialSum_zero _ _ _ _).symm
    · have e1 : n / 128 = (n + 1) / 128 := by omega
      have e2 : n / 8 % 16 = (n + 1) / 8 % 16 := by omega
      have e3 : (n + 1) % 8 = n % 8 + 1 := by omega
      rw [e1, e2] at IH
      by_cases h1 : (n + 1) % 8 = 7
      · rw [outsAt0_C m c ⟨n + 1, h⟩ h0 h1]
        dsimp only
        rw [Pieces.sout0_C_0_eq]
        refine (Body.pay11_apply _ _ _ p q).trans ?_
        rw [block_eq (V m c main_v1) (V m c main_arg3) _ _ _ _ _ p q (fun kk => blkX m c ⟨n + 1, h⟩ p kk) (fun kk => blkW0 m c ⟨n + 1, h⟩ kk q)]
        show (outsAt0 m c n _).2.2.1 (ix2 p q) + blockSum _ _ _ _ ((n + 1) % 8) = partialSum _ _ _ _ ((n + 1) % 8)
        rw [IH, e3]
        exact (partialSum_succ _ _ _ _ _).symm
      · rw [outsAt0_B m c ⟨n + 1, h⟩ h0 h1]
        dsimp only
        rw [Pieces.sout0_B_0_eq]
        refine (Body.pay11_apply _ _ _ p q).trans ?_
        rw [block_eq (V m c main_v1) (V m c main_arg3) _ _ _ _ _ p q (fun kk => blkX m c ⟨n + 1, h⟩ p kk) (fun kk => blkW0 m c ⟨n + 1, h⟩ kk q)]
        show (outsAt0 m c n _).2.2.1 (ix2 p q) + blockSum _ _ _ _ ((n + 1) % 8) = partialSum _ _ _ _ ((n + 1) % 8)
        rw [IH, e3]
        exact (partialSum_succ _ _ _ _ _).symm

/-- The candidate gate's accumulator after point n: blocks 0, …, n mod 8 of the contraction, for the point's rows and columns. -/
theorem acc1 (c : Dev nD) : ∀ (n : ℕ) (h : n < cfg0.N) (p : Fin 1024) (q : Fin 256),
    (outsAt0 m c n h).2.2.2.1 (ix2 p q)
      = partialSum (V m c main_v1 : SX.Idx → EReal) (V m c main_arg5 : SW.Idx → EReal) (1024 * (n / 128) + p.val) (256 * (n / 8 % 16) + q.val) (n % 8)
  | 0, h, p, q => by
    rw [outsAt0_A m c ⟨0, h⟩ rfl (by show ¬(0 % 8 = 7); decide)]
    dsimp only
    rw [Pieces.sout0_A_1_eq]
    refine (Body.pay12_apply _ _ _ p q).trans ?_
    rw [Body.pay6_apply, zero_add]
    rw [block_eq (V m c main_v1) (V m c main_arg5) _ _ _ _ _ p q (fun kk => blkX m c ⟨0, h⟩ p kk) (fun kk => blkW1 m c ⟨0, h⟩ kk q)]
    exact (partialSum_zero _ _ _ _).symm
  | n + 1, h, p, q => by
    have hN : n + 1 < 512 := lt_of_lt_of_eq h N_0
    have IH := acc1 c n (Nat.lt_of_succ_lt h) p q
    by_cases h0 : (n + 1) % 8 = 0
    · have h1 : ¬(n + 1) % 8 = 7 := by omega
      rw [outsAt0_A m c ⟨n + 1, h⟩ h0 h1]
      dsimp only
      rw [Pieces.sout0_A_1_eq]
      refine (Body.pay12_apply _ _ _ p q).trans ?_
      rw [Body.pay6_apply, zero_add]
      rw [block_eq (V m c main_v1) (V m c main_arg5) _ _ _ _ _ p q (fun kk => blkX m c ⟨n + 1, h⟩ p kk) (fun kk => blkW1 m c ⟨n + 1, h⟩ kk q)]
      show blockSum _ _ _ _ ((n + 1) % 8) = partialSum _ _ _ _ ((n + 1) % 8)
      rw [h0]
      exact (partialSum_zero _ _ _ _).symm
    · have e1 : n / 128 = (n + 1) / 128 := by omega
      have e2 : n / 8 % 16 = (n + 1) / 8 % 16 := by omega
      have e3 : (n + 1) % 8 = n % 8 + 1 := by omega
      rw [e1, e2] at IH
      by_cases h1 : (n + 1) % 8 = 7
      · rw [outsAt0_C m c ⟨n + 1, h⟩ h0 h1]
        dsimp only
        rw [Pieces.sout0_C_1_eq]
        refine (Body.pay12_apply _ _ _ p q).trans ?_
        rw [block_eq (V m c main_v1) (V m c main_arg5) _ _ _ _ _ p q (fun kk => blkX m c ⟨n + 1, h⟩ p kk) (fun kk => blkW1 m c ⟨n + 1, h⟩ kk q)]
        show (outsAt0 m c n _).2.2.2.1 (ix2 p q) + blockSum _ _ _ _ ((n + 1) % 8) = partialSum _ _ _ _ ((n + 1) % 8)
        rw [IH, e3]
        exact (partialSum_succ _ _ _ _ _).symm
      · rw [outsAt0_B m c ⟨n + 1, h⟩ h0 h1]
        dsimp only
        rw [Pieces.sout0_B_1_eq]
        refine (Body.pay12_apply _ _ _ p q).trans ?_
        rw [block_eq (V m c main_v1) (V m c main_arg5) _ _ _ _ _ p q (fun kk => blkX m c ⟨n + 1, h⟩ p kk) (fun kk => blkW1 m c ⟨n + 1, h⟩ kk q)]
        show (outsAt0 m c n _).2.2.2.1 (ix2 p q) + blockSum _ _ _ _ ((n + 1) % 8) = partialSum _ _ _ _ ((n + 1) % 8)
        rw [IH, e3]
        exact (partialSum_succ _ _ _ _ _).symm

/-- The input gate's accumulator after point n: blocks 0, …, n mod 8 of the contraction, for the point's rows and columns. -/
theorem acc2 (c : Dev nD) : ∀ (n : ℕ) (h : n < cfg0.N) (p : Fin 1024) (q : Fin 256),
    (outsAt0 m c n h).2.2.2.2.1 (ix2 p q)
      = partialSum (V m c main_v1 : SX.Idx → EReal) (V m c main_arg7 : SW.Idx → EReal) (1024 * (n / 128) + p.val) (256 * (n / 8 % 16) + q.val) (n % 8)
  | 0, h, p, q => by
    rw [outsAt0_A m c ⟨0, h⟩ rfl (by show ¬(0 % 8 = 7); decide)]
    dsimp only
    rw [Pieces.sout0_A_2_eq]
    refine (Body.pay13_apply _ _ _ p q).trans ?_
    rw [Body.pay7_apply, zero_add]
    rw [block_eq (V m c main_v1) (V m c main_arg7) _ _ _ _ _ p q (fun kk => blkX m c ⟨0, h⟩ p kk) (fun kk => blkW2 m c ⟨0, h⟩ kk q)]
    exact (partialSum_zero _ _ _ _).symm
  | n + 1, h, p, q => by
    have hN : n + 1 < 512 := lt_of_lt_of_eq h N_0
    have IH := acc2 c n (Nat.lt_of_succ_lt h) p q
    by_cases h0 : (n + 1) % 8 = 0
    · have h1 : ¬(n + 1) % 8 = 7 := by omega
      rw [outsAt0_A m c ⟨n + 1, h⟩ h0 h1]
      dsimp only
      rw [Pieces.sout0_A_2_eq]
      refine (Body.pay13_apply _ _ _ p q).trans ?_
      rw [Body.pay7_apply, zero_add]
      rw [block_eq (V m c main_v1) (V m c main_arg7) _ _ _ _ _ p q (fun kk => blkX m c ⟨n + 1, h⟩ p kk) (fun kk => blkW2 m c ⟨n + 1, h⟩ kk q)]
      show blockSum _ _ _ _ ((n + 1) % 8) = partialSum _ _ _ _ ((n + 1) % 8)
      rw [h0]
      exact (partialSum_zero _ _ _ _).symm
    · have e1 : n / 128 = (n + 1) / 128 := by omega
      have e2 : n / 8 % 16 = (n + 1) / 8 % 16 := by omega
      have e3 : (n + 1) % 8 = n % 8 + 1 := by omega
      rw [e1, e2] at IH
      by_cases h1 : (n + 1) % 8 = 7
      · rw [outsAt0_C m c ⟨n + 1, h⟩ h0 h1]
        dsimp only
        rw [Pieces.sout0_C_2_eq]
        refine (Body.pay13_apply _ _ _ p q).trans ?_
        rw [block_eq (V m c main_v1) (V m c main_arg7) _ _ _ _ _ p q (fun kk => blkX m c ⟨n + 1, h⟩ p kk) (fun kk => blkW2 m c ⟨n + 1, h⟩ kk q)]
        show (outsAt0 m c n _).2.2.2.2.1 (ix2 p q) + blockSum _ _ _ _ ((n + 1) % 8) = partialSum _ _ _ _ ((n + 1) % 8)
        rw [IH, e3]
        exact (partialSum_succ _ _ _ _ _).symm
      · rw [outsAt0_B m c ⟨n + 1, h⟩ h0 h1]
        dsimp only
        rw [Pieces.sout0_B_2_eq]
        refine (Body.pay13_apply _ _ _ p q).trans ?_
        rw [block_eq (V m c main_v1) (V m c main_arg7) _ _ _ _ _ p q (fun kk => blkX m c ⟨n + 1, h⟩ p kk) (fun kk => blkW2 m c ⟨n + 1, h⟩ kk q)]
        show (outsAt0 m c n _).2.2.2.2.1 (ix2 p q) + blockSum _ _ _ _ ((n + 1) % 8) = partialSum _ _ _ _ ((n + 1) % 8)
        rw [IH, e3]
        exact (partialSum_succ _ _ _ _ _).symm

/-- The output gate's accumulator after point n: blocks 0, …, n mod 8 of the contraction, for the point's rows and columns. -/
theorem acc3 (c : Dev nD) : ∀ (n : ℕ) (h : n < cfg0.N) (p : Fin 1024) (q : Fin 256),
    (outsAt0 m c n h).2.2.2.2.2 (ix2 p q)
      = partialSum (V m c main_v1 : SX.Idx → EReal) (V m c main_arg9 : SW.Idx → EReal) (1024 * (n / 128) + p.val) (256 * (n / 8 % 16) + q.val) (n % 8)
  | 0, h, p, q => by
    rw [outsAt0_A m c ⟨0, h⟩ rfl (by show ¬(0 % 8 = 7); decide)]
    dsimp only
    rw [Pieces.sout0_A_3_eq]
    refine (Body.pay2_apply _ _ _ p q).trans ?_
    rw [Body.pay8_apply, zero_add]
    rw [block_eq (V m c main_v1) (V m c main_arg9) _ _ _ _ _ p q (fun kk => blkX m c ⟨0, h⟩ p kk) (fun kk => blkW3 m c ⟨0, h⟩ kk q)]
    exact (partialSum_zero _ _ _ _).symm
  | n + 1, h, p, q => by
    have hN : n + 1 < 512 := lt_of_lt_of_eq h N_0
    have IH := acc3 c n (Nat.lt_of_succ_lt h) p q
    by_cases h0 : (n + 1) % 8 = 0
    · have h1 : ¬(n + 1) % 8 = 7 := by omega
      rw [outsAt0_A m c ⟨n + 1, h⟩ h0 h1]
      dsimp only
      rw [Pieces.sout0_A_3_eq]
      refine (Body.pay2_apply _ _ _ p q).trans ?_
      rw [Body.pay8_apply, zero_add]
      rw [block_eq (V m c main_v1) (V m c main_arg9) _ _ _ _ _ p q (fun kk => blkX m c ⟨n + 1, h⟩ p kk) (fun kk => blkW3 m c ⟨n + 1, h⟩ kk q)]
      show blockSum _ _ _ _ ((n + 1) % 8) = partialSum _ _ _ _ ((n + 1) % 8)
      rw [h0]
      exact (partialSum_zero _ _ _ _).symm
    · have e1 : n / 128 = (n + 1) / 128 := by omega
      have e2 : n / 8 % 16 = (n + 1) / 8 % 16 := by omega
      have e3 : (n + 1) % 8 = n % 8 + 1 := by omega
      rw [e1, e2] at IH
      by_cases h1 : (n + 1) % 8 = 7
      · rw [outsAt0_C m c ⟨n + 1, h⟩ h0 h1]
        dsimp only
        rw [Pieces.sout0_C_3_eq]
        refine (Body.pay2_apply _ _ _ p q).trans ?_
        rw [block_eq (V m c main_v1) (V m c main_arg9) _ _ _ _ _ p q (fun kk => blkX m c ⟨n + 1, h⟩ p kk) (fun kk => blkW3 m c ⟨n + 1, h⟩ kk q)]
        show (outsAt0 m c n _).2.2.2.2.2 (ix2 p q) + blockSum _ _ _ _ ((n + 1) % 8) = partialSum _ _ _ _ ((n + 1) % 8)
        rw [IH, e3]
        exact (partialSum_succ _ _ _ _ _).symm
      · rw [outsAt0_B m c ⟨n + 1, h⟩ h0 h1]
        dsimp only
        rw [Pieces.sout0_B_3_eq]
        refine (Body.pay2_apply _ _ _ p q).trans ?_
        rw [block_eq (V m c main_v1) (V m c main_arg9) _ _ _ _ _ p q (fun kk => blkX m c ⟨n + 1, h⟩ p kk) (fun kk => blkW3 m c ⟨n + 1, h⟩ kk q)]
        show (outsAt0 m c n _).2.2.2.2.2 (ix2 p q) + blockSum _ _ _ _ ((n + 1) % 8) = partialSum _ _ _ _ ((n + 1) % 8)
        rw [IH, e3]
        exact (partialSum_succ _ _ _ _ _).symm

/-! ## The last contraction step: the finished accumulators -/

/-- After a last contraction step the accumulator holds the whole contraction of the point's row and column. -/
theorem done0 (c : Dev nD) (t : Fin cfg0.N) (h1 : t.val % 8 = 7) (p : Fin 1024) (q : Fin 256) :
    (outsAt0 m c t.val t.isLt).2.2.1 (ix2 p q)
      = dot (V m c main_v1) (V m c main_arg3) (1024 * (t.val / 128) + p.val) (256 * (t.val / 8 % 16) + q.val) := by
  rw [acc0 m c t.val t.isLt p q, h1]
  exact (dot_eq_partialSum _ _ _ _).symm

/-- After a last contraction step the accumulator holds the whole contraction of the point's row and column. -/
theorem done1 (c : Dev nD) (t : Fin cfg0.N) (h1 : t.val % 8 = 7) (p : Fin 1024) (q : Fin 256) :
    (outsAt0 m c t.val t.isLt).2.2.2.1 (ix2 p q)
      = dot (V m c main_v1) (V m c main_arg5) (1024 * (t.val / 128) + p.val) (256 * (t.val / 8 % 16) + q.val) := by
  rw [acc1 m c t.val t.isLt p q, h1]
  exact (dot_eq_partialSum _ _ _ _).symm

/-- After a last contraction step the accumulator holds the whole contraction of the point's row and column. -/
theorem done2 (c : Dev nD) (t : Fin cfg0.N) (h1 : t.val % 8 = 7) (p : Fin 1024) (q : Fin 256) :
    (outsAt0 m c t.val t.isLt).2.2.2.2.1 (ix2 p q)
      = dot (V m c main_v1) (V m c main_arg7) (1024 * (t.val / 128) + p.val) (256 * (t.val / 8 % 16) + q.val) := by
  rw [acc2 m c t.val t.isLt p q, h1]
  exact (dot_eq_partialSum _ _ _ _).symm

/-- After a last contraction step the accumulator holds the whole contraction of the point's row and column. -/
theorem done3 (c : Dev nD) (t : Fin cfg0.N) (h1 : t.val % 8 = 7) (p : Fin 1024) (q : Fin 256) :
    (outsAt0 m c t.val t.isLt).2.2.2.2.2 (ix2 p q)
      = dot (V m c main_v1) (V m c main_arg9) (1024 * (t.val / 128) + p.val) (256 * (t.val / 8 % 16) + q.val) := by
  rw [acc3 m c t.val t.isLt p q, h1]
  exact (dot_eq_partialSum _ _ _ _).symm

end Cert.KernelIdeal.Cell

end
-- ==== Proof.Result.lean ====
/-
  The kernel's two result arrays are the LSTM cell of the argument arrays.

  At the last contraction block of a (row block, column block) the accumulators hold the whole contractions, so
  the blocks written back are the new cell state and the new hidden state at exactly those rows and columns; the
  64 write-backs tile the results, and the arrays the region reads are the arguments ([x | h] for the activation).
-/
import proofs.«112719_j704374636891_2_alg».proof.Proof.Accum

noncomputable section

namespace Cert.KernelIdeal.Cell

open Cert.KernelIdeal Cert.KernelIdeal.Gen Idealize.ShloMosaic Idealize.ShloMosaic.TcCoe Idealize.SL.Sem
open Idealize.ShloMosaic.ValueIdx Cert.Spec
open Idealize.ShloMosaic.Pipeline (Dat)
open scoped BigOperators

variable (m : (ℓ : Loc nD τ sig) → Buf (Elt Ideal) ℓ) (ρ : Dev nD → PrngReg)

/-! ## What a last contraction step leaves for write-back -/

/-- At a last contraction step the cell-state block left for write-back is computed from the accumulators as the
    point leaves them, the bias blocks and the old cell-state block. -/
theorem out10 (c : Dev nD) (t : Fin cfg0.N) (h0 : ¬t.val % 8 = 0) (h1 : t.val % 8 = 7) :
    (outsAt0 m c t.val t.isLt).1 = k0_pay3 (outsAt0 m c t.val t.isLt).2.2.1 (iblk m c 5 t) (outsAt0 m c t.val t.isLt).2.2.2.1 (iblk m c 6 t) (outsAt0 m c t.val t.isLt).2.2.2.2.1 (iblk m c 7 t) (iblk m c 9 t) := by
  rw [outsAt0_C m c t h0 h1]
  dsimp only
  rw [Pieces.out0_C_10_eq, Pieces.sout0_C_0_eq, Pieces.sout0_C_1_eq, Pieces.sout0_C_2_eq]

/-- … and the hidden-state block likewise, with the output gate's accumulator and bias too. -/
theorem out11 (c : Dev nD) (t : Fin cfg0.N) (h0 : ¬t.val % 8 = 0) (h1 : t.val % 8 = 7) :
    (outsAt0 m c t.val t.isLt).2.1 = k0_pay4 (outsAt0 m c t.val t.isLt).2.2.1 (iblk m c 5 t) (outsAt0 m c t.val t.isLt).2.2.2.1 (iblk m c 6 t) (outsAt0 m c t.val t.isLt).2.2.2.2.1 (iblk m c 7 t) (outsAt0 m c t.val t.isLt).2.2.2.2.2 (iblk m c 8 t) (iblk m c 9 t) := by
  rw [outsAt0_C m c t h0 h1]
  dsimp only
  rw [Pieces.out0_C_11_eq, Pieces.sout0_C_0_eq, Pieces.sout0_C_1_eq, Pieces.sout0_C_2_eq, Pieces.sout0_C_3_eq]

/-! ## What the write-backs write, and the result arrays -/

/-- The cell-state block point t writes back is the block of the new cell state. -/
theorem flushed10_eq (c : Dev nD) (t : Fin cfg0.N) (hf : (cfg0.win 10).flush t = true) :
    (dats m 0 c).flushed 10 t = ((cfg0.win 10).blk t).view.read (Elt Ideal)
      (cellNew (V m c main_v1 : SX.Idx → EReal) (V m c main_arg3 : SW.Idx → EReal) (V m c main_arg4 : SB.Idx → EReal) (V m c main_arg5 : SW.Idx → EReal) (V m c main_arg6 : SB.Idx → EReal) (V m c main_arg7 : SW.Idx → EReal) (V m c main_arg8 : SB.Idx → EReal) (V m c main_arg2 : SO.Idx → EReal)) := by
  have h1 : t.val % 8 = 7 := (flush0_10 t).mp hf
  have h0 : ¬t.val % 8 = 0 := by omega
  rw [Value.flushed10 m c t, out10 m c t h0 h1]
  funext y
  obtain ⟨p, q, rfl⟩ : ∃ (p : Fin 1024) (q : Fin 256), y = ix2 p q := ⟨y 0, y 1, eq_ix2 y⟩
  rw [View.read_apply, emb10 t p q]
  show k0_pay3 _ _ _ _ _ _ _ ((cfg0.win 10).xinj (grid0.coords t) (ix2 p q)) = _
  rw [show (cfg0.win 10).xinj (grid0.coords t) (ix2 p q) = ix2 p q from funext fun a => match a with
    | ⟨0, _⟩ => rfl
    | ⟨1, _⟩ => rfl]
  refine (Body.pay3_apply _ _ _ _ _ _ _ p q).trans ?_
  rw [done0 m c t h1 p q, done1 m c t h1 p q, done2 m c t h1 p q, blkB0 m c t q, blkB1 m c t q, blkB2 m c t q, blkC m c t p q]
  rfl

/-- The hidden-state block point t writes back is the block of the new hidden state. -/
theorem flushed11_eq (c : Dev nD) (t : Fin cfg0.N) (hf : (cfg0.win 11).flush t = true) :
    (dats m 0 c).flushed 11 t = ((cfg0.win 11).blk t).view.read (Elt Ideal)
      (hiddenNew (V m c main_v1 : SX.Idx → EReal) (V m c main_arg3 : SW.Idx → EReal) (V m c main_arg4 : SB.Idx → EReal) (V m c main_arg5 : SW.Idx → EReal) (V m c main_arg6 : SB.Idx → EReal) (V m c main_arg7 : SW.Idx → EReal) (V m c main_arg8 : SB.Idx → EReal) (V m c main_arg9 : SW.Idx → EReal) (V m c main_arg10 : SB.Idx → EReal) (V m c main_arg2 : SO.Idx → EReal)) := by
  have h1 : t.val % 8 = 7 := (flush0_11 t).mp hf
  have h0 : ¬t.val % 8 = 0 := by omega
  rw [Value.flushed11 m c t, out11 m c t h0 h1]
  funext y
  obtain ⟨p, q, rfl⟩ : ∃ (p : Fin 1024) (q : Fin 256), y = ix2 p q := ⟨y 0, y 1, eq_ix2 y⟩
  rw [View.read_apply, emb11 t p q]
  show k0_pay4 _ _ _ _ _ _ _ _ _ ((cfg0.win 11).xinj (grid0.coords t) (ix2 p q)) = _
  rw [show (cfg0.win 11).xinj (grid0.coords t) (ix2 p q) = ix2 p q from funext fun a => match a with
    | ⟨0, _⟩ => rfl
    | ⟨1, _⟩ => rfl]
  refine (Body.pay4_apply _ _ _ _ _ _ _ _ _ p q).trans ?_
  rw [Body.pay3_apply, done0 m c t h1 p q, done1 m c t h1 p q, done2 m c t h1 p q, done3 m c t h1 p q,
    blkB0 m c t q, blkB1 m c t q, blkB2 m c t q, blkB3 m c t q, blkC m c t p q]
  rfl

/-- The activation the region finds is [x | h] (its conversion to bf16 changes nothing over the extended reals). -/
theorem activation_eq (c : Dev nD) :
    (V m c main_v1 : SX.Idx → EReal) = (concatenate S4096x8192 1 [⟨S4096x4096, (m ((c : Thread nD τ).loc main_arg0))⟩, ⟨S4096x4096, (m ((c : Thread nD τ).loc main_arg1))⟩] Facts₀.concatenates_S4096x4096_S4096x4096_S4096x8192_d1 : SX.Idx → EReal) := by
  dsimp only [Gen.V, Gen.hostOps0]
  after_results
  rfl

/-- After the run the first result array is the new cell state of the argument arrays. -/
theorem final10 (c : Dev nD) : (dats m 0 c).arrAt 10 cfg0.N = cellNew (concatenate S4096x8192 1 [⟨S4096x4096, (m ((c : Thread nD τ).loc main_arg0))⟩, ⟨S4096x4096, (m ((c : Thread nD τ).loc main_arg1))⟩] Facts₀.concatenates_S4096x4096_S4096x4096_S4096x8192_d1 : SX.Idx → EReal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg2)) := by
  rw [(dats m 0 c).arrAt_eq_of_cover 10 (cellNew (V m c main_v1 : SX.Idx → EReal) (V m c main_arg3 : SW.Idx → EReal) (V m c main_arg4 : SB.Idx → EReal) (V m c main_arg5 : SW.Idx → EReal) (V m c main_arg6 : SB.Idx → EReal) (V m c main_arg7 : SW.Idx → EReal) (V m c main_arg8 : SB.Idx → EReal) (V m c main_arg2 : SO.Idx → EReal)) (flushed10_eq m c) cover10]
  rw [activation_eq m c, V_main_arg2 m c, V_main_arg3 m c, V_main_arg4 m c, V_main_arg5 m c, V_main_arg6 m c, V_main_arg7 m c, V_main_arg8 m c]

/-- After the run the second result array is the new hidden state of the argument arrays. -/
theorem final11 (c : Dev nD) : (dats m 0 c).arrAt 11 cfg0.N = hiddenNew (concatenate S4096x8192 1 [⟨S4096x4096, (m ((c : Thread nD τ).loc main_arg0))⟩, ⟨S4096x4096, (m ((c : Thread nD τ).loc main_arg1))⟩] Facts₀.concatenates_S4096x4096_S4096x4096_S4096x8192_d1 : SX.Idx → EReal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg2)) := by
  rw [(dats m 0 c).arrAt_eq_of_cover 11 (hiddenNew (V m c main_v1 : SX.Idx → EReal) (V m c main_arg3 : SW.Idx → EReal) (V m c main_arg4 : SB.Idx → EReal) (V m c main_arg5 : SW.Idx → EReal) (V m c main_arg6 : SB.Idx → EReal) (V m c main_arg7 : SW.Idx → EReal) (V m c main_arg8 : SB.Idx → EReal) (V m c main_arg9 : SW.Idx → EReal) (V m c main_arg10 : SB.Idx → EReal) (V m c main_arg2 : SO.Idx → EReal)) (flushed11_eq m c) cover11]
  rw [activation_eq m c, V_main_arg2 m c, V_main_arg3 m c, V_main_arg4 m c, V_main_arg5 m c, V_main_arg6 m c, V_main_arg7 m c, V_main_arg8 m c, V_main_arg9 m c, V_main_arg10 m c]

/-- The kernel's run: both results at the LSTM cell of the arguments, the arguments unchanged. -/
theorem run : θ_run defs (onTc (τ := τ) (main (F := Ideal))) ⟨m, fun _ => 0, ρ⟩ fun r => ∀ c : Dev nD,
      r.2.mem ((c : Thread nD τ).loc main_v2_0) = cellNew (concatenate S4096x8192 1 [⟨S4096x4096, (m ((c : Thread nD τ).loc main_arg0))⟩, ⟨S4096x4096, (m ((c : Thread nD τ).loc main_arg1))⟩] Facts₀.concatenates_S4096x4096_S4096x4096_S4096x8192_d1 : SX.Idx → EReal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg2))
      ∧ r.2.mem ((c : Thread nD τ).loc main_v2_1) = hiddenNew (concatenate S4096x8192 1 [⟨S4096x4096, (m ((c : Thread nD τ).loc main_arg0))⟩, ⟨S4096x4096, (m ((c : Thread nD τ).loc main_arg1))⟩] Facts₀.concatenates_S4096x4096_S4096x4096_S4096x8192_d1 : SX.Idx → EReal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final10 m c), (h c).2.1.trans (final11 m c), (h c).2.2⟩)
    (Value.run_blocks m ρ)

end Cert.KernelIdeal.Cell

end
-- ==== Proof.RefValue.lean ====
/-
  The reference, read at an index: it is the LSTM cell of `Spec`.

  The reference multiplies the activation [x | h] by the four weight matrices laid side by side (8192 × 16384) and
  adds the four biases laid end to end, then cuts the 16384 columns into the four gates. Column 4096 g + j of the
  wide product only meets column j of the g-th weight matrix and entry j of the g-th bias, so each slice is that
  gate's pre-activation. Its sigmoid is spelt 1 / (1 + e^(-x)), which is the function σ itself.
-/
import proofs.«112719_j704374636891_2_alg».proof.Proof.Gen.ReferenceIdeal.Read
import proofs.«112719_j704374636891_2_alg».proof.Proof.Spec
import Idealize.ShloMosaic.Lib.IdealHost
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx
open scoped BigOperators

/-- Column 0 + j of the side-by-side weights is column j of the forget gate's weights. -/
theorem weights0_apply (x3 x5 x7 x9 : (⟨S8192x4096, .f32⟩ : BufTy).Contents (Elt Ideal)) (J : S8192x16384.Idx) (k : Fin 8192) (j : Fin 4096)
    (h0 : (J 0).val = k.val) (h1 : (J 1).val = 0 + j.val) :
    val_main_v1 (F := Ideal) x3 x5 x7 x9 J = x3 (ix2 k j) := by
  unfold val_main_v1
  refine concatenate_apply_piece (t := S8192x16384) (1 : Fin 2) _ _ J 0 ?_ S8192x4096 x3 ?_ rfl 0 ?_ (ix2 k j) ?_ ?_
  · simp
  · rfl
  · first | rfl | simp
  · exact fun b hb => match b, hb with
      | ⟨0, _⟩, _ => h0.symm
      | ⟨1, _⟩, hb => absurd rfl hb
  · exact h1.symm

/-- Entry 0 + j of the end-to-end biases is entry j of the forget gate's bias. -/
theorem bias0_apply (x4 x6 x8 x10 : (⟨S4096, .f32⟩ : BufTy).Contents (Elt Ideal)) (J : S16384.Idx) (j : Fin 4096)
    (h0 : (J 0).val = 0 + j.val) :
    val_main_v2 (F := Ideal) x4 x6 x8 x10 J = x4 (ix1 j) := by
  unfold val_main_v2
  refine concatenate_apply_piece (t := S16384) (0 : Fin 1) _ _ J 0 ?_ S4096 x4 ?_ rfl 0 ?_ (ix1 j) ?_ ?_
  · simp
  · rfl
  · first | rfl | simp
  · exact fun b hb => match b, hb with
      | ⟨0, _⟩, hb => absurd rfl hb
  · exact h0.symm

/-- The forget gate's slice of the wide pre-activation is that gate's pre-activation. -/
theorem gate0_eq (x0 x1 : (⟨S4096x4096, .f32⟩ : BufTy).Contents (Elt Ideal)) (x3 : (⟨S8192x4096, .f32⟩ : BufTy).Contents (Elt Ideal)) (x4 : (⟨S4096, .f32⟩ : BufTy).Contents (Elt Ideal)) (x5 : (⟨S8192x4096, .f32⟩ : BufTy).Contents (Elt Ideal)) (x6 : (⟨S4096, .f32⟩ : BufTy).Contents (Elt Ideal)) (x7 : (⟨S8192x4096, .f32⟩ : BufTy).Contents (Elt Ideal)) (x8 : (⟨S4096, .f32⟩ : BufTy).Contents (Elt Ideal)) (x9 : (⟨S8192x4096, .f32⟩ : BufTy).Contents (Elt Ideal)) (x10 : (⟨S4096, .f32⟩ : BufTy).Contents (Elt Ideal)) (i : S4096x4096.Idx) :
    val_main_v7 (F := Ideal) x0 x1 x3 x4 x5 x6 x7 x8 x9 x10 i = Cert.Spec.gate (val_main_v0 (F := Ideal) x0 x1) x3 x4 i := by
  rw [val_main_v7_apply, val_main_v6_apply, val_main_v3_apply, val_main_v5_apply, val_main_v4_apply]
  unfold Cert.Spec.gate
  refine congrArg₂ (· + ·) (Finset.sum_congr rfl fun k _ => congrArg₂ (· * ·) ?_ ?_) ?_
  · exact congrArg _ (funext fun a => match a with
      | ⟨0, _⟩ => rfl
      | ⟨1, _⟩ => rfl)
  · exact weights0_apply x3 x5 x7 x9 _ k (i 1) rfl (Nat.zero_add _).symm
  · exact bias0_apply x4 x6 x8 x10 _ (i 1) (Nat.zero_add _).symm

/-- Column 4096 + j of the side-by-side weights is column j of the candidate gate's weights. -/
theorem weights1_apply (x3 x5 x7 x9 : (⟨S8192x4096, .f32⟩ : BufTy).Contents (Elt Ideal)) (J : S8192x16384.Idx) (k : Fin 8192) (j : Fin 4096)
    (h0 : (J 0).val = k.val) (h1 : (J 1).val = 4096 + j.val) :
    val_main_v1 (F := Ideal) x3 x5 x7 x9 J = x5 (ix2 k j) := by
  unfold val_main_v1
  refine concatenate_apply_piece (t := S8192x16384) (1 : Fin 2) _ _ J 1 ?_ S8192x4096 x5 ?_ rfl 4096 ?_ (ix2 k j) ?_ ?_
  · simp
  · rfl
  · first | rfl | simp
  · exact fun b hb => match b, hb with
      | ⟨0, _⟩, _ => h0.symm
      | ⟨1, _⟩, hb => absurd rfl hb
  · exact h1.symm

/-- Entry 4096 + j of the end-to-end biases is entry j of the candidate gate's bias. -/
theorem bias1_apply (x4 x6 x8 x10 : (⟨S4096, .f32⟩ : BufTy).Contents (Elt Ideal)) (J : S16384.Idx) (j : Fin 4096)
    (h0 : (J 0).val = 4096 + j.val) :
    val_main_v2 (F := Ideal) x4 x6 x8 x10 J = x6 (ix1 j) := by
  unfold val_main_v2
  refine concatenate_apply_piece (t := S16384) (0 : Fin 1) _ _ J 1 ?_ S4096 x6 ?_ rfl 4096 ?_ (ix1 j) ?_ ?_
  · simp
  · rfl
  · first | rfl | simp
  · exact fun b hb => match b, hb with
      | ⟨0, _⟩, hb => absurd rfl hb
  · exact h0.symm

/-- The candidate gate's slice of the wide pre-activation is that gate's pre-activation. -/
theorem gate1_eq (x0 x1 : (⟨S4096x4096, .f32⟩ : BufTy).Contents (Elt Ideal)) (x3 : (⟨S8192x4096, .f32⟩ : BufTy).Contents (Elt Ideal)) (x4 : (⟨S4096, .f32⟩ : BufTy).Contents (Elt Ideal)) (x5 : (⟨S8192x4096, .f32⟩ : BufTy).Contents (Elt Ideal)) (x6 : (⟨S4096, .f32⟩ : BufTy).Contents (Elt Ideal)) (x7 : (⟨S8192x4096, .f32⟩ : BufTy).Contents (Elt Ideal)) (x8 : (⟨S4096, .f32⟩ : BufTy).Contents (Elt Ideal)) (x9 : (⟨S8192x4096, .f32⟩ : BufTy).Contents (Elt Ideal)) (x10 : (⟨S4096, .f32⟩ : BufTy).Contents (Elt Ideal)) (i : S4096x4096.Idx) :
    val_main_v8 (F := Ideal) x0 x1 x3 x4 x5 x6 x7 x8 x9 x10 i = Cert.Spec.gate (val_main_v0 (F := Ideal) x0 x1) x5 x6 i := by
  rw [val_main_v8_apply, val_main_v6_apply, val_main_v3_apply, val_main_v5_apply, val_main_v4_apply]
  unfold Cert.Spec.gate
  refine congrArg₂ (· + ·) (Finset.sum_congr rfl fun k _ => congrArg₂ (· * ·) ?_ ?_) ?_
  · exact congrArg _ (funext fun a => match a with
      | ⟨0, _⟩ => rfl
      | ⟨1, _⟩ => rfl)
  · exact weights1_apply x3 x5 x7 x9 _ k (i 1) rfl rfl
  · exact bias1_apply x4 x6 x8 x10 _ (i 1) rfl

/-- Column 8192 + j of the side-by-side weights is column j of the input gate's weights. -/
theorem weights2_apply (x3 x5 x7 x9 : (⟨S8192x4096, .f32⟩ : BufTy).Contents (Elt Ideal)) (J : S8192x16384.Idx) (k : Fin 8192) (j : Fin 4096)
    (h0 : (J 0).val = k.val) (h1 : (J 1).val = 8192 + j.val) :
    val_main_v1 (F := Ideal) x3 x5 x7 x9 J = x7 (ix2 k j) := by
  unfold val_main_v1
  refine concatenate_apply_piece (t := S8192x16384) (1 : Fin 2) _ _ J 2 ?_ S8192x4096 x7 ?_ rfl 8192 ?_ (ix2 k j) ?_ ?_
  · simp
  · rfl
  · first | rfl | simp
  · exact fun b hb => match b, hb with
      | ⟨0, _⟩, _ => h0.symm
      | ⟨1, _⟩, hb => absurd rfl hb
  · exact h1.symm

/-- Entry 8192 + j of the end-to-end biases is entry j of the input gate's bias. -/
theorem bias2_apply (x4 x6 x8 x10 : (⟨S4096, .f32⟩ : BufTy).Contents (Elt Ideal)) (J : S16384.Idx) (j : Fin 4096)
    (h0 : (J 0).val = 8192 + j.val) :
    val_main_v2 (F := Ideal) x4 x6 x8 x10 J = x8 (ix1 j) := by
  unfold val_main_v2
  refine concatenate_apply_piece (t := S16384) (0 : Fin 1) _ _ J 2 ?_ S4096 x8 ?_ rfl 8192 ?_ (ix1 j) ?_ ?_
  · simp
  · rfl
  · first | rfl | simp
  · exact fun b hb => match b, hb with
      | ⟨0, _⟩, hb => absurd rfl hb
  · exact h0.symm

/-- The input gate's slice of the wide pre-activation is that gate's pre-activation. -/
theorem gate2_eq (x0 x1 : (⟨S4096x4096, .f32⟩ : BufTy).Contents (Elt Ideal)) (x3 : (⟨S8192x4096, .f32⟩ : BufTy).Contents (Elt Ideal)) (x4 : (⟨S4096, .f32⟩ : BufTy).Contents (Elt Ideal)) (x5 : (⟨S8192x4096, .f32⟩ : BufTy).Contents (Elt Ideal)) (x6 : (⟨S4096, .f32⟩ : BufTy).Contents (Elt Ideal)) (x7 : (⟨S8192x4096, .f32⟩ : BufTy).Contents (Elt Ideal)) (x8 : (⟨S4096, .f32⟩ : BufTy).Contents (Elt Ideal)) (x9 : (⟨S8192x4096, .f32⟩ : BufTy).Contents (Elt Ideal)) (x10 : (⟨S4096, .f32⟩ : BufTy).Contents (Elt Ideal)) (i : S4096x4096.Idx) :
    val_main_v9 (F := Ideal) x0 x1 x3 x4 x5 x6 x7 x8 x9 x10 i = Cert.Spec.gate (val_main_v0 (F := Ideal) x0 x1) x7 x8 i := by
  rw [val_main_v9_apply, val_main_v6_apply, val_main_v3_apply, val_main_v5_apply, val_main_v4_apply]
  unfold Cert.Spec.gate
  refine congrArg₂ (· + ·) (Finset.sum_congr rfl fun k _ => congrArg₂ (· * ·) ?_ ?_) ?_
  · exact congrArg _ (funext fun a => match a with
      | ⟨0, _⟩ => rfl
      | ⟨1, _⟩ => rfl)
  · exact weights2_apply x3 x5 x7 x9 _ k (i 1) rfl rfl
  · exact bias2_apply x4 x6 x8 x10 _ (i 1) rfl

/-- Column 12288 + j of the side-by-side weights is column j of the output gate's weights. -/
theorem weights3_apply (x3 x5 x7 x9 : (⟨S8192x4096, .f32⟩ : BufTy).Contents (Elt Ideal)) (J : S8192x16384.Idx) (k : Fin 8192) (j : Fin 4096)
    (h0 : (J 0).val = k.val) (h1 : (J 1).val = 12288 + j.val) :
    val_main_v1 (F := Ideal) x3 x5 x7 x9 J = x9 (ix2 k j) := by
  unfold val_main_v1
  refine concatenate_apply_piece (t := S8192x16384) (1 : Fin 2) _ _ J 3 ?_ S8192x4096 x9 ?_ rfl 12288 ?_ (ix2 k j) ?_ ?_
  · simp
  · rfl
  · first | rfl | simp
  · exact fun b hb => match b, hb with
      | ⟨0, _⟩, _ => h0.symm
      | ⟨1, _⟩, hb => absurd rfl hb
  · exact h1.symm

/-- Entry 12288 + j of the end-to-end biases is entry j of the output gate's bias. -/
theorem bias3_apply (x4 x6 x8 x10 : (⟨S4096, .f32⟩ : BufTy).Contents (Elt Ideal)) (J : S16384.Idx) (j : Fin 4096)
    (h0 : (J 0).val = 12288 + j.val) :
    val_main_v2 (F := Ideal) x4 x6 x8 x10 J = x10 (ix1 j) := by
  unfold val_main_v2
  refine concatenate_apply_piece (t := S16384) (0 : Fin 1) _ _ J 3 ?_ S4096 x10 ?_ rfl 12288 ?_ (ix1 j) ?_ ?_
  · simp
  · rfl
  · first | rfl | simp
  · exact fun b hb => match b, hb with
      | ⟨0, _⟩, hb => absurd rfl hb
  · exact h0.symm

/-- The output gate's slice of the wide pre-activation is that gate's pre-activation. -/
theorem gate3_eq (x0 x1 : (⟨S4096x4096, .f32⟩ : BufTy).Contents (Elt Ideal)) (x3 : (⟨S8192x4096, .f32⟩ : BufTy).Contents (Elt Ideal)) (x4 : (⟨S4096, .f32⟩ : BufTy).Contents (Elt Ideal)) (x5 : (⟨S8192x4096, .f32⟩ : BufTy).Contents (Elt Ideal)) (x6 : (⟨S4096, .f32⟩ : BufTy).Contents (Elt Ideal)) (x7 : (⟨S8192x4096, .f32⟩ : BufTy).Contents (Elt Ideal)) (x8 : (⟨S4096, .f32⟩ : BufTy).Contents (Elt Ideal)) (x9 : (⟨S8192x4096, .f32⟩ : BufTy).Contents (Elt Ideal)) (x10 : (⟨S4096, .f32⟩ : BufTy).Contents (Elt Ideal)) (i : S4096x4096.Idx) :
    val_main_v10 (F := Ideal) x0 x1 x3 x4 x5 x6 x7 x8 x9 x10 i = Cert.Spec.gate (val_main_v0 (F := Ideal) x0 x1) x9 x10 i := by
  rw [val_main_v10_apply, val_main_v6_apply, val_main_v3_apply, val_main_v5_apply, val_main_v4_apply]
  unfold Cert.Spec.gate
  refine congrArg₂ (· + ·) (Finset.sum_congr rfl fun k _ => congrArg₂ (· * ·) ?_ ?_) ?_
  · exact congrArg _ (funext fun a => match a with
      | ⟨0, _⟩ => rfl
      | ⟨1, _⟩ => rfl)
  · exact weights3_apply x3 x5 x7 x9 _ k (i 1) rfl rfl
  · exact bias3_apply x4 x6 x8 x10 _ (i 1) rfl

/-- The reference's sigmoid, 1 / (1 + e^(-x)) with the literal one, is σ. -/
theorem sigmoid_eq (x : EReal) :
    Ideal.div (Ideal.ofBits .f32 0x3F800000#32) (Ideal.ofBits .f32 0x3F800000#32 + Ideal.exp (-x)) = Ideal.logistic x := by
  rw [Ideal.ofBits_one_f32]; rfl

/-- The reference's first result is the new cell state. -/
theorem cell_eq (x0 x1 x2 : (⟨S4096x4096, .f32⟩ : BufTy).Contents (Elt Ideal)) (x3 : (⟨S8192x4096, .f32⟩ : BufTy).Contents (Elt Ideal)) (x4 : (⟨S4096, .f32⟩ : BufTy).Contents (Elt Ideal)) (x5 : (⟨S8192x4096, .f32⟩ : BufTy).Contents (Elt Ideal)) (x6 : (⟨S4096, .f32⟩ : BufTy).Contents (Elt Ideal)) (x7 : (⟨S8192x4096, .f32⟩ : BufTy).Contents (Elt Ideal)) (x8 : (⟨S4096, .f32⟩ : BufTy).Contents (Elt Ideal)) (x9 : (⟨S8192x4096, .f32⟩ : BufTy).Contents (Elt Ideal)) (x10 : (⟨S4096, .f32⟩ : BufTy).Contents (Elt Ideal)) :
    val_main_v32 (F := Ideal) x0 x1 x2 x3 x4 x5 x6 x7 x8 x9 x10
      = Cert.Spec.cellNew (val_main_v0 (F := Ideal) x0 x1) x3 x4 x5 x6 x7 x8 x2 := by
  funext i
  rw [val_main_v32_apply, val_main_v30_apply, val_main_v31_apply, val_main_v16_apply, val_main_v15_apply, val_main_cst_0_apply,
    val_main_v14_apply, val_main_v13_apply, val_main_cst_apply, val_main_v12_apply, val_main_v11_apply, gate0_eq,
    val_main_v17_apply, gate1_eq, val_main_v23_apply, val_main_v22_apply, val_main_cst_2_apply, val_main_v21_apply,
    val_main_v20_apply, val_main_cst_1_apply, val_main_v19_apply, val_main_v18_apply, gate2_eq]
  simp only [Ideal.addf_def, Ideal.mulf_def, Ideal.hostDivf_def, Ideal.hostUnary_exp_def, Ideal.hostUnary_tanh_def,
    Ideal.hostNegf_def, Ideal.negf_def, Ideal.ofBits_def, sigmoid_eq]
  rfl

/-- The reference's second result is the new hidden state. -/
theorem hidden_eq (x0 x1 x2 : (⟨S4096x4096, .f32⟩ : BufTy).Contents (Elt Ideal)) (x3 : (⟨S8192x4096, .f32⟩ : BufTy).Contents (Elt Ideal)) (x4 : (⟨S4096, .f32⟩ : BufTy).Contents (Elt Ideal)) (x5 : (⟨S8192x4096, .f32⟩ : BufTy).Contents (Elt Ideal)) (x6 : (⟨S4096, .f32⟩ : BufTy).Contents (Elt Ideal)) (x7 : (⟨S8192x4096, .f32⟩ : BufTy).Contents (Elt Ideal)) (x8 : (⟨S4096, .f32⟩ : BufTy).Contents (Elt Ideal)) (x9 : (⟨S8192x4096, .f32⟩ : BufTy).Contents (Elt Ideal)) (x10 : (⟨S4096, .f32⟩ : BufTy).Contents (Elt Ideal)) :
    val_main_v34 (F := Ideal) x0 x1 x2 x3 x4 x5 x6 x7 x8 x9 x10
      = Cert.Spec.hiddenNew (val_main_v0 (F := Ideal) x0 x1) x3 x4 x5 x6 x7 x8 x9 x10 x2 := by
  funext i
  rw [val_main_v34_apply, val_main_v33_apply, cell_eq, val_main_v29_apply, val_main_v28_apply, val_main_cst_4_apply,
    val_main_v27_apply, val_main_v26_apply, val_main_cst_3_apply, val_main_v25_apply, val_main_v24_apply, gate3_eq]
  simp only [Ideal.addf_def, Ideal.mulf_def, Ideal.hostDivf_def, Ideal.hostUnary_exp_def, Ideal.hostUnary_tanh_def,
    Ideal.hostNegf_def, Ideal.negf_def, Ideal.ofBits_def, sigmoid_eq]
  rfl

end Cert.ReferenceIdeal.RefValue

end
-- ==== Proof.lean ====
/-
  The fused LSTM cell kernel against its reference, over the extended reals.

  Both programs compute, from the activation [x | h] (4096 × 8192), four weight matrices (8192 × 4096), four
  biases and the old cell state c, the new cell state  c · σ(f) + tanh(g) · σ(i)  and the new hidden state
  tanh(cell) · σ(o), where each of f, g, i, o is the activation times that gate's weights plus its bias.

  The kernel sweeps the contraction in eight blocks of 1024, adding each block's product to an accumulator that
  starts from zero, and applies the bias and the nonlinearities at the last block; the reference multiplies once
  by the four weight matrices laid side by side and slices the result. Over the extended reals the eight blocks
  add up to the whole contraction (addition is commutative and associative there, whatever the values), column
  4096 g + j of the wide product is column j of gate g, the conversions to bf16 are the identity, and
  1 / (1 + e^(-x)) is σ x: so the two results agree entry by entry, for all inputs. The precondition is not used.

  Every program terminates without fault and leaves its arguments unchanged; the kernel's idealization rewrote
  nothing, so there is nothing to preserve.
-/
import proofs.«112719_j704374636891_2_alg».proof.Defs
import proofs.«112719_j704374636891_2_alg».proof.Proof.Gen.Kernel
import proofs.«112719_j704374636891_2_alg».proof.Proof.Gen.Kernel.Skeleton
import proofs.«112719_j704374636891_2_alg».proof.Proof.Gen.Kernel.Launch
import proofs.«112719_j704374636891_2_alg».proof.Proof.Gen.Kernel.Points
import proofs.«112719_j704374636891_2_alg».proof.Proof.Gen.Kernel.Frame
import proofs.«112719_j704374636891_2_alg».proof.Proof.Gen.KernelIdeal
import proofs.«112719_j704374636891_2_alg».proof.Proof.Gen.KernelIdeal.Skeleton
import proofs.«112719_j704374636891_2_alg».proof.Proof.Gen.KernelIdeal.Launch
import proofs.«112719_j704374636891_2_alg».proof.Proof.Gen.KernelIdeal.Points
import proofs.«112719_j704374636891_2_alg».proof.Proof.Gen.KernelIdeal.Frame
import proofs.«112719_j704374636891_2_alg».proof.Proof.Gen.ReferenceIdeal
import proofs.«112719_j704374636891_2_alg».proof.Proof.Gen.KernelIdeal.Value
import proofs.«112719_j704374636891_2_alg».proof.Proof.Gen.ReferenceIdeal.Run
import proofs.«112719_j704374636891_2_alg».proof.Proof.Gen.ReferenceIdeal.Read
import proofs.«112719_j704374636891_2_alg».proof.Proof.Gen.Pre_finite_inputs
import proofs.«112719_j704374636891_2_alg».proof.Proof.Result
import proofs.«112719_j704374636891_2_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its reading over the extended reals. -/
theorem preserves : Cert.preserves_Kernel_KernelIdeal := trivial

/-- From arguments that agree, the kernel ends with the new cell and hidden states of its arguments and the
    reference with the same two functions of its own. -/
theorem algebraic : Cert.algebraic_KernelIdeal_ReferenceIdeal := by
  intro m ρ m' ρ' _ hagree
  refine ⟨_, _, Cert.KernelIdeal.Cell.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v32_eq _ _ _ _ _ _ _ _ _ _ _).trans ?_
    obtain ⟨a0, a1, a2, a3, a4, a5, a6, a7, a8, a9, a10⟩ := hagree c
    rw [Cert.ReferenceIdeal.RefValue.cell_eq, a0, a1, a2, a3, a4, a5, a6, a7, a8]
    rfl
  · refine (Cert.ReferenceIdeal.Read.val_main_v34_eq m' c).trans ?_
    obtain ⟨a0, a1, a2, a3, a4, a5, a6, a7, a8, a9, a10⟩ := hagree c
    rw [Cert.ReferenceIdeal.RefValue.hidden_eq, a0, a1, a2, a3, a4, a5, a6, a7, a8, a9, a10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
